-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)) (v3 : (c : Dev Cert.KernelIdeal.nD) → Buf (Elt Ideal) ((c.tc : Thread Cert.KernelIdeal.nD Cert.KernelIdeal.τ).loc Cert.KernelIdeal.main_v23_3)) (v4 : (c : Dev Cert.KernelIdeal.nD) → Buf (Elt Ideal) ((c.tc : Thread Cert.KernelIdeal.nD Cert.KernelIdeal.τ).loc Cert.KernelIdeal.main_v23_4)) (v5 : (c : Dev Cert.KernelIdeal.nD) → Buf (Elt Ideal) ((c.tc : Thread Cert.KernelIdeal.nD Cert.KernelIdeal.τ).loc Cert.KernelIdeal.main_v23_5)) (v6 : (c : Dev Cert.KernelIdeal.nD) → Buf (Elt Ideal) ((c.tc : Thread Cert.KernelIdeal.nD Cert.KernelIdeal.τ).loc Cert.KernelIdeal.main_v28_0)) (v7 : (c : Dev Cert.KernelIdeal.nD) → Buf (Elt Ideal) ((c.tc : Thread Cert.KernelIdeal.nD Cert.KernelIdeal.τ).loc Cert.KernelIdeal.main_v28_1)) (v8 : (c : Dev Cert.KernelIdeal.nD) → Buf (Elt Ideal) ((c.tc : Thread Cert.KernelIdeal.nD Cert.KernelIdeal.τ).loc Cert.KernelIdeal.main_v28_2)) (v9 : (c : Dev Cert.KernelIdeal.nD) → Buf (Elt Ideal) ((c.tc : Thread Cert.KernelIdeal.nD Cert.KernelIdeal.τ).loc Cert.KernelIdeal.main_v28_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_v23_3) = v3 c
          ∧ r.2.mem ((c.tc : Thread Cert.KernelIdeal.nD Cert.KernelIdeal.τ).loc Cert.KernelIdeal.main_v23_4) = v4 c
          ∧ r.2.mem ((c.tc : Thread Cert.KernelIdeal.nD Cert.KernelIdeal.τ).loc Cert.KernelIdeal.main_v23_5) = v5 c
          ∧ r.2.mem ((c.tc : Thread Cert.KernelIdeal.nD Cert.KernelIdeal.τ).loc Cert.KernelIdeal.main_v28_0) = v6 c
          ∧ r.2.mem ((c.tc : Thread Cert.KernelIdeal.nD Cert.KernelIdeal.τ).loc Cert.KernelIdeal.main_v28_1) = v7 c
          ∧ r.2.mem ((c.tc : Thread Cert.KernelIdeal.nD Cert.KernelIdeal.τ).loc Cert.KernelIdeal.main_v28_2) = v8 c
          ∧ r.2.mem ((c.tc : Thread Cert.KernelIdeal.nD Cert.KernelIdeal.τ).loc Cert.KernelIdeal.main_v28_3) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v68) = v3 c
          ∧ r.2.mem ((c.tc : Thread Cert.ReferenceIdeal.nD Cert.ReferenceIdeal.τ).loc Cert.ReferenceIdeal.main_v79) = v4 c
          ∧ r.2.mem ((c.tc : Thread Cert.ReferenceIdeal.nD Cert.ReferenceIdeal.τ).loc Cert.ReferenceIdeal.main_v90) = v5 c
          ∧ r.2.mem ((c.tc : Thread Cert.ReferenceIdeal.nD Cert.ReferenceIdeal.τ).loc Cert.ReferenceIdeal.main_v103) = v6 c
          ∧ r.2.mem ((c.tc : Thread Cert.ReferenceIdeal.nD Cert.ReferenceIdeal.τ).loc Cert.ReferenceIdeal.main_v117) = v7 c
          ∧ r.2.mem ((c.tc : Thread Cert.ReferenceIdeal.nD Cert.ReferenceIdeal.τ).loc Cert.ReferenceIdeal.main_v110) = v8 c
          ∧ r.2.mem ((c.tc : Thread Cert.ReferenceIdeal.nD Cert.ReferenceIdeal.τ).loc Cert.ReferenceIdeal.main_v129) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S64x512x512 : Shape := ⟨3, ![64, 512, 512]⟩
abbrev S1x512 : Shape := ⟨2, ![1, 512]⟩
abbrev S512x512 : Shape := ⟨2, ![512, 512]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S64x512x512 : S_.BroadcastsInDim S64x512x512 (![] : Fin 0 → Fin S64x512x512.rank)
  reducesTo_S64x512x512_S_d0_1_2 : S64x512x512.ReducesTo [0, 1, 2] S_
  bcast_S_S1x512 : S_.BroadcastsInDim S1x512 (![] : Fin 0 → Fin S1x512.rank)
  reducesTo_S1x512_S_d0_1 : S1x512.ReducesTo [0, 1] S_
  bcast_S_S512x512 : S_.BroadcastsInDim S512x512 (![] : Fin 0 → Fin S512x512.rank)
  reducesTo_S512x512_S_d0_1 : S512x512.ReducesTo [0, 1] S_

variable [Facts]

def fn_part4 {F : FTy → Type} [FloatOps F] (main_arg14 : FVec F S512x512 .f32) (main_v63 : IVec S_ 1) (main_v67 : IVec S_ 1) : IVec S_ 1 :=
  let main_v68 : IVec S_ 1 := andi main_v63 main_v67
  let main_v69 : FVec F S512x512 .f32 := Host.absf main_arg14
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  main_v73

def fn_part3 {F : FTy → Type} [FloatOps F] (main_arg11 : FVec F S1x512 .f32) (main_arg12 : FVec F S1x512 .f32) (main_arg13 : FVec F S512x512 .f32) (main_arg14 : FVec F S512x512 .f32) (main_v48 : IVec S_ 1) (main_v49 : FVec F S64x512x512 .f32) (main_v50 : FVec F S64x512x512 .f32) : IVec S_ 1 :=
  let main_v51 : IVec S64x512x512 1 := cmpf .olt main_v49 main_v50
  let main_c_19 : IVec S_ 1 := constantI S_ 1 1#1
  let main_v52 : IVec S_ 1 := (fun x v => Host.reduce IntOp.andi x v reducesTo_S64x512x512_S_d0_1_2 h_S_) main_v51 main_c_19
  let main_v53 : IVec S_ 1 := andi main_v48 main_v52
  let main_v54 : FVec F S1x512 .f32 := Host.absf main_arg11
  let main_cst_20 : FVec F S_ .f32 := constant S_ .f32 0x7F800000#32
  let main_v55 : FVec F S1x512 .f32 := broadcastInDim S1x512 ![] bcast_S_S1x512 main_cst_20
  let main_v56 : IVec S1x512 1 := cmpf .olt main_v54 main_v55
  let main_c_21 : IVec S_ 1 := constantI S_ 1 1#1
  let main_v57 : IVec S_ 1 := (fun x v => Host.reduce IntOp.andi x v reducesTo_S1x512_S_d0_1 h_S_) main_v56 main_c_21
  let main_v58 : IVec S_ 1 := andi main_v53 main_v57
  let main_v59 : FVec F S1x512 .f32 := Host.absf main_arg12
  let main_cst_22 : FVec F S_ .f32 := constant S_ .f32 0x7F800000#32
  let main_v60 : FVec F S1x512 .f32 := broadcastInDim S1x512 ![] bcast_S_S1x512 main_cst_22
  let main_v61 : IVec S1x512 1 := cmpf .olt main_v59 main_v60
  let main_c_23 : IVec S_ 1 := constantI S_ 1 1#1
  let main_v62 : IVec S_ 1 := (fun x v => Host.reduce IntOp.andi x v reducesTo_S1x512_S_d0_1 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg14 main_v63 main_v67

def fn_part2 {F : FTy → Type} [FloatOps F] (main_arg7 : FVec F S64x512x512 .f32) (main_arg8 : FVec F S64x512x512 .f32) (main_arg9 : FVec F S64x512x512 .f32) (main_arg10 : FVec F S64x512x512 .f32) (main_arg11 : FVec F S1x512 .f32) (main_arg12 : FVec F S1x512 .f32) (main_arg13 : FVec F S512x512 .f32) (main_arg14 : FVec F S512x512 .f32) (main_v33 : IVec S_ 1) : IVec S_ 1 :=
  let main_v34 : FVec F S64x512x512 .f32 := Host.absf main_arg7
  let main_cst_12 : FVec F S_ .f32 := constant S_ .f32 0x7F800000#32
  let main_v35 : FVec F S64x512x512 .f32 := broadcastInDim S64x512x512 ![] bcast_S_S64x512x512 main_cst_12
  let main_v36 : IVec S64x512x512 1 := cmpf .olt main_v34 main_v35
  let main_c_13 : IVec S_ 1 := constantI S_ 1 1#1
  let main_v37 : IVec S_ 1 := (fun x v => Host.reduce IntOp.andi x v reducesTo_S64x512x512_S_d0_1_2 h_S_) main_v36 main_c_13
  let main_v38 : IVec S_ 1 := andi main_v33 main_v37
  let main_v39 : FVec F S64x512x512 .f32 := Host.absf main_arg8
  let main_cst_14 : FVec F S_ .f32 := constant S_ .f32 0x7F800000#32
  let main_v40 : FVec F S64x512x512 .f32 := broadcastInDim S64x512x512 ![] bcast_S_S64x512x512 main_cst_14
  let main_v41 : IVec S64x512x512 1 := cmpf .olt main_v39 main_v40
  let main_c_15 : IVec S_ 1 := constantI S_ 1 1#1
  let main_v42 : IVec S_ 1 := (fun x v => Host.reduce IntOp.andi x v reducesTo_S64x512x512_S_d0_1_2 h_S_) main_v41 main_c_15
  let main_v43 : IVec S_ 1 := andi main_v38 main_v42
  let main_v44 : FVec F S64x512x512 .f32 := Host.absf main_arg9
  let main_cst_16 : FVec F S_ .f32 := constant S_ .f32 0x7F800000#32
  let main_v45 : FVec F S64x512x512 .f32 := broadcastInDim S64x512x512 ![] bcast_S_S64x512x512 main_cst_16
  let main_v46 : IVec S64x512x512 1 := cmpf .olt main_v44 main_v45
  let main_c_17 : IVec S_ 1 := constantI S_ 1 1#1
  let main_v47 : IVec S_ 1 := (fun x v => Host.reduce IntOp.andi x v reducesTo_S64x512x512_S_d0_1_2 h_S_) main_v46 main_c_17
  let main_v48 : IVec S_ 1 := andi main_v43 main_v47
  let main_v49 : FVec F S64x512x512 .f32 := Host.absf main_arg10
  let main_cst_18 : FVec F S_ .f32 := constant S_ .f32 0x7F800000#32
  let main_v50 : FVec F S64x512x512 .f32 := broadcastInDim S64x512x512 ![] bcast_S_S64x512x512 main_cst_18
  fn_part3 (F := F) main_arg11 main_arg12 main_arg13 main_arg14 main_v48 main_v49 main_v50

def fn_part1 {F : FTy → Type} [FloatOps F] (main_arg4 : FVec F S64x512 .f32) (main_arg5 : FVec F S64x512 .f32) (main_arg6 : FVec F S64x512 .f32) (main_arg7 : FVec F S64x512x512 .f32) (main_arg8 : FVec F S64x512x512 .f32) (main_arg9 : FVec F S64x512x512 .f32) (main_arg10 : FVec F S64x512x512 .f32) (main_arg11 : FVec F S1x512 .f32) (main_arg12 : FVec F S1x512 .f32) (main_arg13 : FVec F S512x512 .f32) (main_arg14 : FVec F S512x512 .f32) (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  let main_v19 : FVec F S64x512 .f32 := Host.absf main_arg4
  let main_cst_6 : FVec F S_ .f32 := constant S_ .f32 0x7F800000#32
  let main_v20 : FVec F S64x512 .f32 := broadcastInDim S64x512 ![] bcast_S_S64x512 main_cst_6
  let main_v21 : IVec S64x512 1 := cmpf .olt main_v19 main_v20
  let main_c_7 : IVec S_ 1 := constantI S_ 1 1#1
  let main_v22 : IVec S_ 1 := (fun x v => Host.reduce IntOp.andi x v reducesTo_S64x512_S_d0_1 h_S_) main_v21 main_c_7
  let main_v23 : IVec S_ 1 := andi main_v18 main_v22
  let main_v24 : FVec F S64x512 .f32 := Host.absf main_arg5
  let main_cst_8 : FVec F S_ .f32 := constant S_ .f32 0x7F800000#32
  let main_v25 : FVec F S64x512 .f32 := broadcastInDim S64x512 ![] bcast_S_S64x512 main_cst_8
  let main_v26 : IVec S64x512 1 := cmpf .olt main_v24 main_v25
  let main_c_9 : IVec S_ 1 := constantI S_ 1 1#1
  let main_v27 : IVec S_ 1 := (fun x v => Host.reduce IntOp.andi x v reducesTo_S64x512_S_d0_1 h_S_) main_v26 main_c_9
  let main_v28 : IVec S_ 1 := andi main_v23 main_v27
  let main_v29 : FVec F S64x512 .f32 := Host.absf main_arg6
  let main_cst_10 : FVec F S_ .f32 := constant S_ .f32 0x7F800000#32
  let main_v30 : FVec F S64x512 .f32 := broadcastInDim S64x512 ![] bcast_S_S64x512 main_cst_10
  let main_v31 : IVec S64x512 1 := cmpf .olt main_v29 main_v30
  let main_c_11 : IVec S_ 1 := constantI S_ 1 1#1
  let main_v32 : IVec S_ 1 := (fun x v => Host.reduce IntOp.andi x v reducesTo_S64x512_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S64x512 .f32) (main_arg1 : FVec F S64x512 .f32) (main_arg2 : FVec F S64x512 .f32) (main_arg3 : FVec F S64x512 .f32) (main_arg4 : FVec F S64x512 .f32) (main_arg5 : FVec F S64x512 .f32) (main_arg6 : FVec F S64x512 .f32) (main_arg7 : FVec F S64x512x512 .f32) (main_arg8 : FVec F S64x512x512 .f32) (main_arg9 : FVec F S64x512x512 .f32) (main_arg10 : FVec F S64x512x512 .f32) (main_arg11 : FVec F S1x512 .f32) (main_arg12 : FVec F S1x512 .f32) (main_arg13 : FVec F S512x512 .f32) (main_arg14 : FVec F S512x512 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S64x512 : Shape := ⟨2, ![64, 512]⟩
abbrev S64x512x512 : Shape := ⟨3, ![64, 512, 512]⟩
abbrev S1x512 : Shape := ⟨2, ![1, 512]⟩
abbrev S512x512 : Shape := ⟨2, ![512, 512]⟩
abbrev S_ : Shape := ⟨0, ![]⟩
abbrev S64x512x1 : Shape := ⟨3, ![64, 512, 1]⟩
abbrev S1x1x512 : Shape := ⟨3, ![1, 1, 512]⟩
abbrev S2x512x512 : Shape := ⟨3, ![2, 512, 512]⟩
abbrev S2x512x1 : Shape := ⟨3, ![2, 512, 1]⟩

abbrev nBuf : Space → Nat
  | .hbm => 53
  | .vmem => 44
  | .smem => 0
  | _ => 0

abbrev bufTy : (tb : Table) → Fin (tcTables nBuf tb) → BufTy
  | .hbm, ⟨0, _⟩ => ⟨S64x512, .f32⟩
  | .hbm, ⟨1, _⟩ => ⟨S64x512, .f32⟩
  | .hbm, ⟨2, _⟩ => ⟨S64x512, .f32⟩
  | .hbm, ⟨3, _⟩ => ⟨S64x512, .f32⟩
  | .hbm, ⟨4, _⟩ => ⟨S64x512, .f32⟩
  | .hbm, ⟨5, _⟩ => ⟨S64x512, .f32⟩
  | .hbm, ⟨6, _⟩ => ⟨S64x512, .f32⟩
  | .hbm, ⟨7, _⟩ => ⟨S64x512x512, .f32⟩
  | .hbm, ⟨8, _⟩ => ⟨S64x512x512, .f32⟩
  | .hbm, ⟨9, _⟩ => ⟨S64x512x512, .f32⟩
  | .hbm, ⟨10, _⟩ => ⟨S64x512x512, .f32⟩
  | .hbm, ⟨11, _⟩ => ⟨S1x512, .f32⟩
  | .hbm, ⟨12, _⟩ => ⟨S1x512, .f32⟩
  | .hbm, ⟨13, _⟩ => ⟨S512x512, .f32⟩
  | .hbm, ⟨14, _⟩ => ⟨S512x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S_, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S1x512, .f32⟩
  | .hbm, ⟨39, _⟩ => ⟨S64x512, .f32⟩
  | .hbm, ⟨40, _⟩ => ⟨S64x512, .f32⟩
  | .hbm, ⟨41, _⟩ => ⟨S64x512, .f32⟩
  | .hbm, ⟨42, _⟩ => ⟨S64x512, .f32⟩
  | .hbm, ⟨43, _⟩ => ⟨S64x512, .f32⟩
  | .hbm, ⟨44, _⟩ => ⟨S64x512, .f32⟩
  | .hbm, ⟨45, _⟩ => ⟨S64x512x1, .f32⟩
  | .hbm, ⟨46, _⟩ => ⟨S1x1x512, .f32⟩
  | .hbm, ⟨47, _⟩ => ⟨S1x1x512, .f32⟩
  | .hbm, ⟨48, _⟩ => ⟨S1x1x512, .f32⟩
  | .hbm, ⟨49, _⟩ => ⟨S64x512x512, .f32⟩
  | .hbm, ⟨50, _⟩ => ⟨S64x512x512, .f32⟩
  | .hbm, ⟨51, _⟩ => ⟨S64x512x512, .f32⟩
  | .hbm, ⟨52, _⟩ => ⟨S64x512x512, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S512x512, .f32⟩
  | .local _ .vmem, ⟨8, _⟩ => ⟨S512x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S64x512, .f32⟩
  | .local _ .vmem, ⟨18, _⟩ => ⟨S64x512, .f32⟩
  | .local _ .vmem, ⟨19, _⟩ => ⟨S64x512, .f32⟩
  | .local _ .vmem, ⟨20, _⟩ => ⟨S64x512, .f32⟩
  | .local _ .vmem, ⟨21, _⟩ => ⟨S64x512, .f32⟩
  | .local _ .vmem, ⟨22, _⟩ => ⟨S64x512, .f32⟩
  | .local _ .vmem, ⟨23, _⟩ => ⟨S2x512x512, .f32⟩
  | .local _ .vmem, ⟨24, _⟩ => ⟨S2x512x512, .f32⟩
  | .local _ .vmem, ⟨25, _⟩ => ⟨S2x512x512, .f32⟩
  | .local _ .vmem, ⟨26, _⟩ => ⟨S2x512x512, .f32⟩
  | .local _ .vmem, ⟨27, _⟩ => ⟨S2x512x512, .f32⟩
  | .local _ .vmem, ⟨28, _⟩ => ⟨S2x512x512, .f32⟩
  | .local _ .vmem, ⟨29, _⟩ => ⟨S2x512x512, .f32⟩
  | .local _ .vmem, ⟨30, _⟩ => ⟨S2x512x512, .f32⟩
  | .local _ .vmem, ⟨31, _⟩ => ⟨S2x512x1, .f32⟩
  | .local _ .vmem, ⟨32, _⟩ => ⟨S2x512x1, .f32⟩
  | .local _ .vmem, ⟨33, _⟩ => ⟨S1x1x512, .f32⟩
  | .local _ .vmem, ⟨34, _⟩ => ⟨S1x1x512, .f32⟩
  | .local _ .vmem, ⟨35, _⟩ => ⟨S1x1x512, .f32⟩
  | .local _ .vmem, ⟨36, _⟩ => ⟨S2x512x512, .f32⟩
  | .local _ .vmem, ⟨37, _⟩ => ⟨S2x512x512, .f32⟩
  | .local _ .vmem, ⟨38, _⟩ => ⟨S2x512x512, .f32⟩
  | .local _ .vmem, ⟨39, _⟩ => ⟨S2x512x512, .f32⟩
  | .local _ .vmem, ⟨40, _⟩ => ⟨S2x512x512, .f32⟩
  | .local _ .vmem, ⟨41, _⟩ => ⟨S2x512x512, .f32⟩
  | .local _ .vmem, ⟨42, _⟩ => ⟨S2x512x512, .f32⟩
  | .local _ .vmem, ⟨43, _⟩ => ⟨S2x512x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23_0 : Ref sig .tc := ⟨.hbm, 39, rfl⟩
abbrev main_v23_1 : Ref sig .tc := ⟨.hbm, 40, rfl⟩
abbrev main_v23_2 : Ref sig .tc := ⟨.hbm, 41, rfl⟩
abbrev main_v23_3 : Ref sig .tc := ⟨.hbm, 42, rfl⟩
abbrev main_v23_4 : Ref sig .tc := ⟨.hbm, 43, rfl⟩
abbrev main_v23_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28_0 : Ref sig .tc := ⟨.hbm, 49, rfl⟩
abbrev main_v28_1 : Ref sig .tc := ⟨.hbm, 50, rfl⟩
abbrev main_v28_2 : Ref sig .tc := ⟨.hbm, 51, rfl⟩
abbrev main_v28_3 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg2_1 : Ref sig .tc := ⟨.vmem, 28, rfl⟩
abbrev cc1_stg3_0 : Ref sig .tc := ⟨.vmem, 29, rfl⟩
abbrev cc1_stg3_1 : Ref sig .tc := ⟨.vmem, 30, rfl⟩
abbrev cc1_stg4_0 : Ref sig .tc := ⟨.vmem, 31, rfl⟩
abbrev cc1_stg4_1 : Ref sig .tc := ⟨.vmem, 32, rfl⟩
abbrev cc1_stg5_0 : Ref sig .tc := ⟨.vmem, 33, rfl⟩
abbrev cc1_stg6_0 : Ref sig .tc := ⟨.vmem, 34, rfl⟩
abbrev cc1_stg7_0 : Ref sig .tc := ⟨.vmem, 35, rfl⟩
abbrev cc1_stg8_0 : Ref sig .tc := ⟨.vmem, 36, rfl⟩
abbrev cc1_stg8_1 : Ref sig .tc := ⟨.vmem, 37, rfl⟩
abbrev cc1_stg9_0 : Ref sig .tc := ⟨.vmem, 38, rfl⟩
abbrev cc1_stg9_1 : Ref sig .tc := ⟨.vmem, 39, rfl⟩
abbrev cc1_stg10_0 : Ref sig .tc := ⟨.vmem, 40, rfl⟩
abbrev cc1_stg10_1 : Ref sig .tc := ⟨.vmem, 41, rfl⟩
abbrev cc1_stg11_0 : Ref sig .tc := ⟨.vmem, 42, rfl⟩
abbrev cc1_stg11_1 : Ref sig .tc := ⟨.vmem, 43, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem2_1 : DmaSem sig := 28
abbrev cc1_sem3_0 : DmaSem sig := 29
abbrev cc1_sem3_1 : DmaSem sig := 30
abbrev cc1_sem4_0 : DmaSem sig := 31
abbrev cc1_sem4_1 : DmaSem sig := 32
abbrev cc1_sem5_0 : DmaSem sig := 33
abbrev cc1_sem6_0 : DmaSem sig := 34
abbrev cc1_sem7_0 : DmaSem sig := 35
abbrev cc1_sem8_0 : DmaSem sig := 36
abbrev cc1_sem8_1 : DmaSem sig := 37
abbrev cc1_sem9_0 : DmaSem sig := 38
abbrev cc1_sem9_1 : DmaSem sig := 39
abbrev cc1_sem10_0 : DmaSem sig := 40
abbrev cc1_sem10_1 : DmaSem sig := 41
abbrev cc1_sem11_0 : DmaSem sig := 42
abbrev cc1_sem11_1 : DmaSem sig := 43

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S64x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S64x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S64x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S64x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2x512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2x512x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2x512x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2x512x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2x512x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  bcast_S_S1x512 : S_.BroadcastsInDim S1x512 (![] : Fin 0 → Fin S1x512.rank)
  inb_S64x512_S64x512_0_0 : ∀ a, (![0, 0] : Fin 2 → Nat) a + S64x512.size a ≤ S64x512.size a
  h_S64x512 : 0 < S64x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S64x512 : S1x512.Broadcasts S64x512
  shapeCasts_S64x512_S64x512x1 : S64x512.ShapeCasts S64x512x1
  shapeCasts_S1x512_S1x1x512 : S1x512.ShapeCasts S1x1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  inb_S2x512x1_S2x512x1_0_0_0 : ∀ a, (![0, 0, 0] : Fin 3 → Nat) a + S2x512x1.size a ≤ S2x512x1.size a
  h_S2x512x1 : 0 < S2x512x1.numel
  shapeCasts_S2x512x1_S2x512x1 : S2x512x1.ShapeCasts S2x512x1
  broadcasts_S1x1x512_S2x512x512 : S1x1x512.Broadcasts S2x512x512
  broadcasts_S2x512x1_S2x512x512 : S2x512x1.Broadcasts S2x512x512
  inb_S2x512x512_S2x512x512_0_0_0 : ∀ a, (![0, 0, 0] : Fin 3 → Nat) a + S2x512x512.size a ≤ S2x512x512.size a
  h_S2x512x512 : 0 < S2x512x512.numel
  dot_S64x512_S512x512_S64x512_1_0_0_1_n_n_wf : DotDims.WF S64x512 S512x512 S64x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S64x512.size a
  hwx0_0 : ∀ i : grid0.Coords, EltTy.bits .f32 = 32 ∨ (Rect.block (s := S64x512) S64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x512.size a ≤ S64x512.size a
  hwx0_4 : ∀ i : grid0.Coords, EltTy.bits .f32 = 32 ∨ (Rect.block (s := S64x512) S64x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x512.size a ≤ S64x512.size a
  hwx0_5 : ∀ i : grid0.Coords, EltTy.bits .f32 = 32 ∨ (Rect.block (s := S64x512) S64x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x512.size a ≤ S64x512.size a
  hwx0_6 : ∀ i : grid0.Coords, EltTy.bits .f32 = 32 ∨ (Rect.block (s := S64x512) S64x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .f32 = 32 ∨ (Rect.block (s := S512x512) S512x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x512.size a
  hwx0_13 : ∀ i : grid0.Coords, EltTy.bits .f32 = 32 ∨ (Rect.block (s := S1x512) S1x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x512.size a ≤ S1x512.size a
  hwx0_14 : ∀ i : grid0.Coords, EltTy.bits .f32 = 32 ∨ (Rect.block (s := S1x512) S1x512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x512.size a ≤ S1x512.size a
  hwx0_15 : ∀ i : grid0.Coords, EltTy.bits .f32 = 32 ∨ (Rect.block (s := S1x512) S1x512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x512.size a ≤ S1x512.size a
  hwx0_16 : ∀ i : grid0.Coords, EltTy.bits .f32 = 32 ∨ (Rect.block (s := S1x512) S1x512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S64x512.size a ≤ S64x512.size a
  hwx0_17 : ∀ i : grid0.Coords, EltTy.bits .f32 = 32 ∨ (Rect.block (s := S64x512) S64x512.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S64x512.size a ≤ S64x512.size a
  hwx0_18 : ∀ i : grid0.Coords, EltTy.bits .f32 = 32 ∨ (Rect.block (s := S64x512) S64x512.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S64x512.size a ≤ S64x512.size a
  hwx0_19 : ∀ i : grid0.Coords, EltTy.bits .f32 = 32 ∨ (Rect.block (s := S64x512) S64x512.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S64x512.size a ≤ S64x512.size a
  hwx0_20 : ∀ i : grid0.Coords, EltTy.bits .f32 = 32 ∨ (Rect.block (s := S64x512) S64x512.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S64x512.size a ≤ S64x512.size a
  hwx0_21 : ∀ i : grid0.Coords, EltTy.bits .f32 = 32 ∨ (Rect.block (s := S64x512) S64x512.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S64x512.size a ≤ S64x512.size a
  hwx0_22 : ∀ i : grid0.Coords, EltTy.bits .f32 = 32 ∨ (Rect.block (s := S64x512) S64x512.size (cc0_transform_22 i) (hinb0_22 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x512x512.size a ≤ S64x512x512.size a
  hwx1_0 : ∀ i : grid1.Coords, EltTy.bits .f32 = 32 ∨ (Rect.block (s := S64x512x512) S2x512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x512x512.size a ≤ S64x512x512.size a
  hwx1_1 : ∀ i : grid1.Coords, EltTy.bits .f32 = 32 ∨ (Rect.block (s := S64x512x512) S2x512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x512x512.size a ≤ S64x512x512.size a
  hwx1_2 : ∀ i : grid1.Coords, EltTy.bits .f32 = 32 ∨ (Rect.block (s := S64x512x512) S2x512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x512x512.size a ≤ S64x512x512.size a
  hwx1_3 : ∀ i : grid1.Coords, EltTy.bits .f32 = 32 ∨ (Rect.block (s := S64x512x512) S2x512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2x512x1.size a ≤ S64x512x1.size a
  hwx1_4 : ∀ i : grid1.Coords, EltTy.bits .f32 = 32 ∨ (Rect.block (s := S64x512x1) S2x512x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1x512.size a ≤ S1x1x512.size a
  hwx1_5 : ∀ i : grid1.Coords, EltTy.bits .f32 = 32 ∨ (Rect.block (s := S1x1x512) S1x1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1x512.size a ≤ S1x1x512.size a
  hwx1_6 : ∀ i : grid1.Coords, EltTy.bits .f32 = 32 ∨ (Rect.block (s := S1x1x512) S1x1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1x512.size a ≤ S1x1x512.size a
  hwx1_7 : ∀ i : grid1.Coords, EltTy.bits .f32 = 32 ∨ (Rect.block (s := S1x1x512) S1x1x512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2x512x512.size a ≤ S64x512x512.size a
  hwx1_8 : ∀ i : grid1.Coords, EltTy.bits .f32 = 32 ∨ (Rect.block (s := S64x512x512) S2x512x512.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2x512x512.size a ≤ S64x512x512.size a
  hwx1_9 : ∀ i : grid1.Coords, EltTy.bits .f32 = 32 ∨ (Rect.block (s := S64x512x512) S2x512x512.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2x512x512.size a ≤ S64x512x512.size a
  hwx1_10 : ∀ i : grid1.Coords, EltTy.bits .f32 = 32 ∨ (Rect.block (s := S64x512x512) S2x512x512.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2x512x512.size a ≤ S64x512x512.size a
  hwx1_11 : ∀ i : grid1.Coords, EltTy.bits .f32 = 32 ∨ (Rect.block (s := S64x512x512) S2x512x512.size (cc1_transform_11 i) (hinb1_11 i)).WholeWords (EltTy.packing .f32)

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf

abbrev win0_0 : Pipeline.Window sig grid0 :=
  Pipeline.Window.ofSpec (Memref.whole main_arg0) S64x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg13) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg14) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v16) S1x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v18) S1x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v19) S1x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v22) S1x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v23_0) S64x512.size cc0_transform_17 reads0_17 true true 1 stage0_17 sem0_17
    hrank0 hreads0_17 hinb0_17 nbuf0_17 (Memref.isWhole_whole _) hwx0_17 hstage0_17

abbrev win0_18 : Pipeline.Window sig grid0 :=
  Pipeline.Window.ofSpec (Memref.whole main_v23_1) S64x512.size cc0_transform_18 reads0_18 true true 1 stage0_18 sem0_18
    hrank0 hreads0_18 hinb0_18 nbuf0_18 (Memref.isWhole_whole _) hwx0_18 hstage0_18

abbrev win0_19 : Pipeline.Window sig grid0 :=
  Pipeline.Window.ofSpec (Memref.whole main_v23_2) S64x512.size cc0_transform_19 reads0_19 true true 1 stage0_19 sem0_19
    hrank0 hreads0_19 hinb0_19 nbuf0_19 (Memref.isWhole_whole _) hwx0_19 hstage0_19

abbrev win0_20 : Pipeline.Window sig grid0 :=
  Pipeline.Window.ofSpec (Memref.whole main_v23_3) S64x512.size cc0_transform_20 reads0_20 true true 1 stage0_20 sem0_20
    hrank0 hreads0_20 hinb0_20 nbuf0_20 (Memref.isWhole_whole _) hwx0_20 hstage0_20

abbrev win0_21 : Pipeline.Window sig grid0 :=
  Pipeline.Window.ofSpec (Memref.whole main_v23_4) S64x512.size cc0_transform_21 reads0_21 true true 1 stage0_21 sem0_21
    hrank0 hreads0_21 hinb0_21 nbuf0_21 (Memref.isWhole_whole _) hwx0_21 hstage0_21

abbrev win0_22 : Pipeline.Window sig grid0 :=
  Pipeline.Window.ofSpec (Memref.whole main_v23_5) S64x512.size cc0_transform_22 reads0_22 true true 1 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

abbrev win1_0 : Pipeline.Window sig grid1 :=
  Pipeline.Window.ofSpec (Memref.whole main_arg7) S2x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S2x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S2x512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S2x512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v24) S2x512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S1x1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S1x1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v28_0) S2x512x512.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v28_1) S2x512x512.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v28_2) S2x512x512.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v28_3) S2x512x512.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S64x512 : Shape := ⟨2, ![64, 512]⟩
abbrev S64x512x512 : Shape := ⟨3, ![64, 512, 512]⟩
abbrev S1x512 : Shape := ⟨2, ![1, 512]⟩
abbrev S512x512 : Shape := ⟨2, ![512, 512]⟩
abbrev S_ : Shape := ⟨0, ![]⟩
abbrev S64x512x1 : Shape := ⟨3, ![64, 512, 1]⟩
abbrev S1x1x512 : Shape := ⟨3, ![1, 1, 512]⟩

abbrev nBuf : Space → Nat
  | .hbm => 146
  | .vmem => 0
  | .smem => 0
  | _ => 0

abbrev hbmTy0_0 (i : Nat) : BufTy := match i % 128 with
  | 0 => ⟨S64x512, .f32⟩
  | 1 => ⟨S64x512, .f32⟩
  | 2 => ⟨S64x512, .f32⟩
  | 3 => ⟨S64x512, .f32⟩
  | 4 => ⟨S64x512, .f32⟩
  | 5 => ⟨S64x512, .f32⟩
  | 6 => ⟨S64x512, .f32⟩
  | 7 => ⟨S64x512x512, .f32⟩
  | 8 => ⟨S64x512x512, .f32⟩
  | 9 => ⟨S64x512x512, .f32⟩
  | 10 => ⟨S64x512x512, .f32⟩
  | 11 => ⟨S1x512, .f32⟩
  | 12 => ⟨S1x512, .f32⟩
  | 13 => ⟨S512x512, .f32⟩
  | 14 => ⟨S512x512, .f32⟩
  | 15 => ⟨S1x512, .f32⟩
  | 16 => ⟨S1x512, .f32⟩
  | 17 => ⟨S1x512, .f32⟩
  | 18 => ⟨S1x512, .f32⟩
  | 19 => ⟨S1x512, .f32⟩
  | 20 => ⟨S1x512, .f32⟩
  | 21 => ⟨S1x512, .f32⟩
  | 22 => ⟨S1x512, .f32⟩
  | 23 => ⟨S1x512, .f32⟩
  | 24 => ⟨S_, .f32⟩
  | 25 => ⟨S1x512, .f32⟩
  | 26 => ⟨S1x512, .f32⟩
  | 27 => ⟨S1x512, .f32⟩
  | 28 => ⟨S1x512, .f32⟩
  | 29 => ⟨S1x512, .f32⟩
  | 30 => ⟨S1x512, .f32⟩
  | 31 => ⟨S1x512, .f32⟩
  | 32 => ⟨S1x512, .f32⟩
  | 33 => ⟨S1x512, .f32⟩
  | 34 => ⟨S1x512, .f32⟩
  | 35 => ⟨S1x512, .f32⟩
  | 36 => ⟨S1x512, .f32⟩
  | 37 => ⟨S1x512, .f32⟩
  | 38 => ⟨S1x512, .f32⟩
  | 39 => ⟨S64x512, .f32⟩
  | 40 => ⟨S64x512, .f32⟩
  | 41 => ⟨S64x512, .f32⟩
  | 42 => ⟨S64x512, .f32⟩
  | 43 => ⟨S64x512, .f32⟩
  | 44 => ⟨S64x512, .f32⟩
  | 45 => ⟨S64x512, .f32⟩
  | 46 => ⟨S64x512, .f32⟩
  | 47 => ⟨S64x512, .f32⟩
  | 48 => ⟨S64x512, .f32⟩
  | 49 => ⟨S64x512, .f32⟩
  | 50 => ⟨S64x512, .f32⟩
  | 51 => ⟨S64x512, .f32⟩
  | 52 => ⟨S64x512, .f32⟩
  | 53 => ⟨S64x512, .f32⟩
  | 54 => ⟨S64x512, .f32⟩
  | 55 => ⟨S64x512, .f32⟩
  | 56 => ⟨S64x512, .f32⟩
  | 57 => ⟨S64x512, .f32⟩
  | 58 => ⟨S64x512, .f32⟩
  | 59 => ⟨S64x512, .f32⟩
  | 60 => ⟨S64x512, .f32⟩
  | 61 => ⟨S64x512, .f32⟩
  | 62 => ⟨S64x512, .f32⟩
  | 63 => ⟨S64x512, .f32⟩
  | 64 => ⟨S64x512, .f32⟩
  | 65 => ⟨S64x512, .f32⟩
  | 66 => ⟨S64x512, .f32⟩
  | 67 => ⟨S64x512, .f32⟩
  | 68 => ⟨S64x512, .f32⟩
  | 69 => ⟨S64x512, .f32⟩
  | 70 => ⟨S64x512, .f32⟩
  | 71 => ⟨S64x512, .f32⟩
  | 72 => ⟨S64x512, .f32⟩
  | 73 => ⟨S64x512, .f32⟩
  | 74 => ⟨S64x512, .f32⟩
  | 75 => ⟨S64x512, .f32⟩
  | 76 => ⟨S64x512, .f32⟩
  | 77 => ⟨S64x512, .f32⟩
  | 78 => ⟨S64x512, .f32⟩
  | 79 => ⟨S64x512, .f32⟩
  | 80 => ⟨S64x512, .f32⟩
  | 81 => ⟨S64x512, .f32⟩
  | 82 => ⟨S64x512, .f32⟩
  | 83 => ⟨S64x512, .f32⟩
  | 84 => ⟨S64x512, .f32⟩
  | 85 => ⟨S64x512, .f32⟩
  | 86 => ⟨S64x512, .f32⟩
  | 87 => ⟨S64x512, .f32⟩
  | 88 => ⟨S64x512, .f32⟩
  | 89 => ⟨S64x512, .f32⟩
  | 90 => ⟨S64x512, .f32⟩
  | 91 => ⟨S64x512, .f32⟩
  | 92 => ⟨S64x512, .f32⟩
  | 93 => ⟨S64x512, .f32⟩
  | 94 => ⟨S64x512, .f32⟩
  | 95 => ⟨S64x512, .f32⟩
  | 96 => ⟨S64x512, .f32⟩
  | 97 => ⟨S64x512, .f32⟩
  | 98 => ⟨S64x512, .f32⟩
  | 99 => ⟨S64x512, .f32⟩
  | 100 => ⟨S64x512, .f32⟩
  | 101 => ⟨S64x512, .f32⟩
  | 102 => ⟨S64x512, .f32⟩
  | 103 => ⟨S64x512, .f32⟩
  | 104 => ⟨S64x512, .f32⟩
  | 105 => ⟨S64x512, .f32⟩
  | 106 => ⟨S64x512, .f32⟩
  | 107 => ⟨S64x512x1, .f32⟩
  | 108 => ⟨S1x1x512, .f32⟩
  | 109 => ⟨S64x512x512, .f32⟩
  | 110 => ⟨S64x512x512, .f32⟩
  | 111 => ⟨S1x1x512, .f32⟩
  | 112 => ⟨S64x512x512, .f32⟩
  | 113 => ⟨S64x512x512, .f32⟩
  | 114 => ⟨S64x512x512, .f32⟩
  | 115 => ⟨S1x1x512, .f32⟩
  | 116 => ⟨S64x512x512, .f32⟩
  | 117 => ⟨S64x512x512, .f32⟩
  | 118 => ⟨S64x512x512, .f32⟩
  | 119 => ⟨S64x512x512, .f32⟩
  | 120 => ⟨S1x1x512, .f32⟩
  | 121 => ⟨S64x512x512, .f32⟩
  | 122 => ⟨S64x512x512, .f32⟩
  | 123 => ⟨S1x1x512, .f32⟩
  | 124 => ⟨S64x512x512, .f32⟩
  | 125 => ⟨S64x512x512, .f32⟩
  | 126 => ⟨S64x512x512, .f32⟩
  | 127 => ⟨S1x1x512, .f32⟩
  | _ => ⟨S64x512, .f32⟩

abbrev hbmTy0_1 (i : Nat) : BufTy := match i % 128 with
  | 0 => ⟨S64x512x512, .f32⟩
  | 1 => ⟨S64x512x512, .f32⟩
  | 2 => ⟨S1x1x512, .f32⟩
  | 3 => ⟨S64x512x512, .f32⟩
  | 4 => ⟨S64x512x512, .f32⟩
  | 5 => ⟨S64x512x512, .f32⟩
  | 6 => ⟨S1x1x512, .f32⟩
  | 7 => ⟨S64x512x512, .f32⟩
  | 8 => ⟨S64x512x512, .f32⟩
  | 9 => ⟨S1x1x512, .f32⟩
  | 10 => ⟨S64x512x512, .f32⟩
  | 11 => ⟨S64x512x512, .f32⟩
  | 12 => ⟨S64x512x512, .f32⟩
  | 13 => ⟨S1x1x512, .f32⟩
  | 14 => ⟨S64x512x512, .f32⟩
  | 15 => ⟨S64x512x512, .f32⟩
  | 16 => ⟨S64x512x512, .f32⟩
  | 17 => ⟨S64x512x512, .f32⟩
  | _ => ⟨S64x512, .f32⟩

abbrev hbmTy (i : Nat) : BufTy := match i / 128 with
  | 0 => hbmTy0_0 i
  | 1 => hbmTy0_1 i
  | _ => ⟨S64x512, .f32⟩

abbrev bufTy : (tb : Table) → Fin (tcTables nBuf tb) → BufTy
  | .hbm, ⟨i, _⟩ => hbmTy i
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩

abbrev nD : Nat := 1
abbrev τ : Topo := Topo.v7x

variable {F : FTy → Type} [FloatOps F]

class Facts₀ : Prop where
  bcast_S_S1x512 : S_.BroadcastsInDim S1x512 (![] : Fin 0 → Fin S1x512.rank)
  bcast_S1x512_S64x512_0_1 : S1x512.BroadcastsInDim S64x512 (![0, 1] : Fin 2 → Fin S64x512.rank)
  bcast_S64x512_S64x512x1_0_1 : S64x512.BroadcastsInDim S64x512x1 (![0, 1] : Fin 2 → Fin S64x512x1.rank)
  bcast_S1x512_S1x1x512_1_2 : S1x512.BroadcastsInDim S1x1x512 (![1, 2] : Fin 2 → Fin S1x1x512.rank)
  bcast_S1x1x512_S64x512x512_0_1_2 : S1x1x512.BroadcastsInDim S64x512x512 (![0, 1, 2] : Fin 3 → Fin S64x512x512.rank)
  bcast_S64x512x1_S64x512x512_0_1_2 : S64x512x1.BroadcastsInDim S64x512x512 (![0, 1, 2] : Fin 3 → Fin S64x512x512.rank)
  dot_S64x512_S512x512_S64x512_1_0_0_1_n_n_wf : DotDims.WF S64x512 S512x512 S64x512 [1] [0] [0] [1] [] []

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf

class Facts : Prop extends Facts₀ where

variable [Facts]
-- ==== Proof.KernelRun.lean ====
/-
  The idealized kernel's run with every result named.

  The program is four stretches in a row: host operations, the small call (one grid point, every block a whole
  array), four reshapes, the big call (32 grid points, two batch rows each). The contents of the TensorCore's
  buffers at the four boundaries are a fold: a host stretch applies its operations, a call replaces each of its
  arrays by what its write-backs leave and keeps every other buffer. Here the run is stated with the whole last
  boundary in its post — every buffer visible from @main holds the fold's last contents — and each result buffer
  is then walked back through the fold to the array its call leaves: the six results of the small call are not
  touched by the reshapes nor by the big call, and the four results of the big call are its own output arrays.
-/
import proofs.«146985_j4964982194384_2_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and in the final memory every buffer that is visible
    from @main holds the contents of the fold's last boundary. -/
theorem run_last_boundary : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The four reshapes between the calls write none of the small call's results. -/
local macro "reshapes_write_elsewhere" : tactic => `(tactic| (
  simp only [hostOps1, List.flatten_cons, List.flatten_nil, List.append_nil, List.cons_append,
    List.nil_append, List.Forall, StableHlo.nullary_writes, StableHlo.unary_writes, StableHlo.binary_writes,
    StableHlo.reshape_writes, Finset.mem_singleton]
  repeat' apply And.intro
  all_goals exact StableHlo.devRef_ne_of_ne (by decide)))

/-- A result of the small call, at the last boundary, is the array the small call leaves: the big call does not
    have it among its arrays and no reshape writes it. -/
theorem last_v23_0 (c : Dev nD) : W4 m ρ c (Proc.devRef .tc main_v23_0) = (dat0 (V1 m ρ) c).arrAt 17 cfg0.N :=
  calc W4 m ρ c (Proc.devRef .tc main_v23_0)
    _ = W3 m ρ c (Proc.devRef .tc main_v23_0) := W4_of_ne m ρ c main_v23_0 (by decide)
    _ = W2 m ρ c (Proc.devRef .tc main_v23_0) := StableHlo.after_of_forall_not_mem (b := Proc.devRef .tc main_v23_0) _ _
          (List.forall_iff_forall_mem.mp (by reshapes_write_elsewhere))
    _ = (dat0 (V1 m ρ) c).arrAt 17 cfg0.N := W2_arr m ρ c 17
theorem last_v23_1 (c : Dev nD) : W4 m ρ c (Proc.devRef .tc main_v23_1) = (dat0 (V1 m ρ) c).arrAt 18 cfg0.N :=
  calc W4 m ρ c (Proc.devRef .tc main_v23_1)
    _ = W3 m ρ c (Proc.devRef .tc main_v23_1) := W4_of_ne m ρ c main_v23_1 (by decide)
    _ = W2 m ρ c (Proc.devRef .tc main_v23_1) := StableHlo.after_of_forall_not_mem (b := Proc.devRef .tc main_v23_1) _ _
          (List.forall_iff_forall_mem.mp (by reshapes_write_elsewhere))
    _ = (dat0 (V1 m ρ) c).arrAt 18 cfg0.N := W2_arr m ρ c 18
theorem last_v23_2 (c : Dev nD) : W4 m ρ c (Proc.devRef .tc main_v23_2) = (dat0 (V1 m ρ) c).arrAt 19 cfg0.N :=
  calc W4 m ρ c (Proc.devRef .tc main_v23_2)
    _ = W3 m ρ c (Proc.devRef .tc main_v23_2) := W4_of_ne m ρ c main_v23_2 (by decide)
    _ = W2 m ρ c (Proc.devRef .tc main_v23_2) := StableHlo.after_of_forall_not_mem (b := Proc.devRef .tc main_v23_2) _ _
          (List.forall_iff_forall_mem.mp (by reshapes_write_elsewhere))
    _ = (dat0 (V1 m ρ) c).arrAt 19 cfg0.N := W2_arr m ρ c 19
theorem last_v23_3 (c : Dev nD) : W4 m ρ c (Proc.devRef .tc main_v23_3) = (dat0 (V1 m ρ) c).arrAt 20 cfg0.N :=
  calc W4 m ρ c (Proc.devRef .tc main_v23_3)
    _ = W3 m ρ c (Proc.devRef .tc main_v23_3) := W4_of_ne m ρ c main_v23_3 (by decide)
    _ = W2 m ρ c (Proc.devRef .tc main_v23_3) := StableHlo.after_of_forall_not_mem (b := Proc.devRef .tc main_v23_3) _ _
          (List.forall_iff_forall_mem.mp (by reshapes_write_elsewhere))
    _ = (dat0 (V1 m ρ) c).arrAt 20 cfg0.N := W2_arr m ρ c 20
theorem last_v23_4 (c : Dev nD) : W4 m ρ c (Proc.devRef .tc main_v23_4) = (dat0 (V1 m ρ) c).arrAt 21 cfg0.N :=
  calc W4 m ρ c (Proc.devRef .tc main_v23_4)
    _ = W3 m ρ c (Proc.devRef .tc main_v23_4) := W4_of_ne m ρ c main_v23_4 (by decide)
    _ = W2 m ρ c (Proc.devRef .tc main_v23_4) := StableHlo.after_of_forall_not_mem (b := Proc.devRef .tc main_v23_4) _ _
          (List.forall_iff_forall_mem.mp (by reshapes_write_elsewhere))
    _ = (dat0 (V1 m ρ) c).arrAt 21 cfg0.N := W2_arr m ρ c 21
theorem last_v23_5 (c : Dev nD) : W4 m ρ c (Proc.devRef .tc main_v23_5) = (dat0 (V1 m ρ) c).arrAt 22 cfg0.N :=
  calc W4 m ρ c (Proc.devRef .tc main_v23_5)
    _ = W3 m ρ c (Proc.devRef .tc main_v23_5) := W4_of_ne m ρ c main_v23_5 (by decide)
    _ = W2 m ρ c (Proc.devRef .tc main_v23_5) := StableHlo.after_of_forall_not_mem (b := Proc.devRef .tc main_v23_5) _ _
          (List.forall_iff_forall_mem.mp (by reshapes_write_elsewhere))
    _ = (dat0 (V1 m ρ) c).arrAt 22 cfg0.N := W2_arr m ρ c 22

/-- A result of the big call, at the last boundary, is the array the big call leaves. -/
theorem last_v28_0 (c : Dev nD) : W4 m ρ c (Proc.devRef .tc main_v28_0) = (dat1 (V3 m ρ) c).arrAt 8 cfg1.N := W4_arr m ρ c 8
theorem last_v28_1 (c : Dev nD) : W4 m ρ c (Proc.devRef .tc main_v28_1) = (dat1 (V3 m ρ) c).arrAt 9 cfg1.N := W4_arr m ρ c 9
theorem last_v28_2 (c : Dev nD) : W4 m ρ c (Proc.devRef .tc main_v28_2) = (dat1 (V3 m ρ) c).arrAt 10 cfg1.N := W4_arr m ρ c 10
theorem last_v28_3 (c : Dev nD) : W4 m ρ c (Proc.devRef .tc main_v28_3) = (dat1 (V3 m ρ) c).arrAt 11 cfg1.N := W4_arr m ρ c 11

/-- THE RUN, READ: every weakly fair execution terminates, nothing faulting, with each result buffer at the array its
    call leaves and each argument as launched. -/
theorem run_arrays : θ_run defs (onTc (τ := τ) (main (F := F))) ⟨m, fun _ => 0, ρ⟩ (fun r => ∀ c : Dev nD,
      r.2.mem ((c.tc : Thread nD τ).loc main_v23_0) = (dat0 (V1 m ρ) c).arrAt 17 cfg0.N
      ∧ r.2.mem ((c.tc : Thread nD τ).loc main_v23_1) = (dat0 (V1 m ρ) c).arrAt 18 cfg0.N
      ∧ r.2.mem ((c.tc : Thread nD τ).loc main_v23_2) = (dat0 (V1 m ρ) c).arrAt 19 cfg0.N
      ∧ r.2.mem ((c.tc : Thread nD τ).loc main_v23_3) = (dat0 (V1 m ρ) c).arrAt 20 cfg0.N
      ∧ r.2.mem ((c.tc : Thread nD τ).loc main_v23_4) = (dat0 (V1 m ρ) c).arrAt 21 cfg0.N
      ∧ r.2.mem ((c.tc : Thread nD τ).loc main_v23_5) = (dat0 (V1 m ρ) c).arrAt 22 cfg0.N
      ∧ r.2.mem ((c.tc : Thread nD τ).loc main_v28_0) = (dat1 (V3 m ρ) c).arrAt 8 cfg1.N
      ∧ r.2.mem ((c.tc : Thread nD τ).loc main_v28_1) = (dat1 (V3 m ρ) c).arrAt 9 cfg1.N
      ∧ r.2.mem ((c.tc : Thread nD τ).loc main_v28_2) = (dat1 (V3 m ρ) c).arrAt 10 cfg1.N
      ∧ r.2.mem ((c.tc : Thread nD τ).loc main_v28_3) = (dat1 (V3 m ρ) c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_v23_0 (by decide))).trans (last_v23_0 m ρ c),
     (h c _ (mem_uc main_v23_1 (by decide))).trans (last_v23_1 m ρ c),
     (h c _ (mem_uc main_v23_2 (by decide))).trans (last_v23_2 m ρ c),
     (h c _ (mem_uc main_v23_3 (by decide))).trans (last_v23_3 m ρ c),
     (h c _ (mem_uc main_v23_4 (by decide))).trans (last_v23_4 m ρ c),
     (h c _ (mem_uc main_v23_5 (by decide))).trans (last_v23_5 m ρ c),
     (h c _ (mem_uc main_v28_0 (by decide))).trans (last_v28_0 m ρ c),
     (h c _ (mem_uc main_v28_1 (by decide))).trans (last_v28_1 m ρ c),
     (h c _ (mem_uc main_v28_2 (by decide))).trans (last_v28_2 m ρ c),
     (h c _ (mem_uc main_v28_3 (by decide))).trans (last_v28_3 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c)⟩)
    (run_last_boundary m ρ)

end Cert.KernelIdeal.Fold

end
-- ==== Proof.Spec.lean ====
/-
  What the ten results are, entry by entry, on the extended reals.

  A batch of 64 rows, 512 input features and 512 hidden units. One row of eight per-unit coefficients is computed
  from the two parameter rows before anything else (the rotation's cosine and sine parts `g`, `φ`, the normalising
  factor `n`, and their five derivatives); every result reads those rows under its own hidden-unit column `q`.

  * the two halves of the new hidden state rotate the old pair `(h₁, h₂)` by `(g, φ)` and add `n` times the input's
    projection `x · w`;
  * the four traces of the parameters `n0 … n3` are the same rotation applied to the old traces, plus the derivative
    coefficients times the old state (and, for the two decay traces, times the projection);
  * the four traces of the input weights `n4 … n7`, one `512 × 512` plane per batch row, rotate the old planes and
    add `n` times the input entry `x (b, d)`, the same for every unit of row `d`.

  Products, sums and differences are the extended reals' own, taken in the order written.
-/
import Idealize.ShloMosaic.PureOps.Ideal
import Idealize.ShloMosaic.Lib.ValueIdx

noncomputable section

open scoped BigOperators

namespace Cert.TraceSpec

open Idealize.ShloMosaic Idealize.ShloMosaic.ValueIdx

/-- A batch of rows of 512 entries (inputs and hidden units both count 512). -/
abbrev Mat : Shape := ⟨2, ![64, 512]⟩
/-- A weight matrix. -/
abbrev Sq : Shape := ⟨2, ![512, 512]⟩
/-- One row of per-unit coefficients. -/
abbrev Row : Shape := ⟨2, ![1, 512]⟩
/-- One weight-shaped plane per batch row. -/
abbrev Cube : Shape := ⟨3, ![64, 512, 512]⟩

/-- The coefficient of hidden unit `q`. -/
def at1 (v : FVec Ideal Row .f32) (q : Fin 512) : EReal := v (ix2 (0 : Fin 1) q)

/-- The projection of batch row `p` of `x` on column `q` of `w`. -/
def proj (x : FVec Ideal Mat .f32) (w : FVec Ideal Sq .f32) (p : Fin 64) (q : Fin 512) : EReal :=
  ∑ k : Fin 512, x (ix2 p k) * w (ix2 k q)

/-- An array over batch × units from its entries. -/
def onMat (f : Fin 64 → Fin 512 → EReal) : FVec Ideal Mat .f32 :=
  fun i => f ⟨(i 0).val, (i 0).isLt⟩ ⟨(i 1).val, (i 1).isLt⟩
/-- An array over batch × inputs × units from its entries. -/
def onCube (f : Fin 64 → Fin 512 → Fin 512 → EReal) : FVec Ideal Cube .f32 :=
  fun i => f ⟨(i 0).val, (i 0).isLt⟩ ⟨(i 1).val, (i 1).isLt⟩ ⟨(i 2).val, (i 2).isLt⟩

theorem onMat_apply (f : Fin 64 → Fin 512 → EReal) (p : Fin 64) (q : Fin 512) : onMat f (ix2 p q) = f p q := rfl
theorem onCube_apply (f : Fin 64 → Fin 512 → Fin 512 → EReal) (b : Fin 64) (d q : Fin 512) :
    onCube f (ix3 b d q) = f b d q := rfl

variable (g phi norm dgr dpr dgt dpt dnr : FVec Ideal Row .f32)
variable (x h1 h2 gm0 gm1 gm2 gm3 : FVec Ideal Mat .f32) (w : FVec Ideal Sq .f32)
variable (pa pb : FVec Ideal Cube .f32)

/-- First half of the new state: `g·h₁ − φ·h₂ + n·(x·w)`. -/
def state1 (p : Fin 64) (q : Fin 512) : EReal :=
  (at1 g q * h1 (ix2 p q) - at1 phi q * h2 (ix2 p q)) + at1 norm q * proj x w p q
/-- Second half: `g·h₂ + φ·h₁ + n·(x·w)`. -/
def state2 (p : Fin 64) (q : Fin 512) : EReal :=
  (at1 g q * h2 (ix2 p q) + at1 phi q * h1 (ix2 p q)) + at1 norm q * proj x w p q
/-- Decay trace of the first half: `g'·h₁ + g·m₀ − φ'·h₂ − φ·m₁ + n'·(x·w)`. -/
def trace0 (p : Fin 64) (q : Fin 512) : EReal :=
  (((at1 dgr q * h1 (ix2 p q) + at1 g q * gm0 (ix2 p q)) - at1 dpr q * h2 (ix2 p q)) - at1 phi q * gm1 (ix2 p q))
    + at1 dnr q * proj x w p q
/-- Decay trace of the second half: `g'·h₂ + g·m₁ + φ'·h₁ + φ·m₀ + n'·(x·w)`. -/
def trace1 (p : Fin 64) (q : Fin 512) : EReal :=
  (((at1 dgr q * h2 (ix2 p q) + at1 g q * gm1 (ix2 p q)) + at1 dpr q * h1 (ix2 p q)) + at1 phi q * gm0 (ix2 p q))
    + at1 dnr q * proj x w p q
/-- Angle trace of the first half: `g'·h₁ + g·m₂ − φ'·h₂ − φ·m₃`. -/
def trace2 (p : Fin 64) (q : Fin 512) : EReal :=
  ((at1 dgt q * h1 (ix2 p q) + at1 g q * gm2 (ix2 p q)) - at1 dpt q * h2 (ix2 p q)) - at1 phi q * gm3 (ix2 p q)
/-- Angle trace of the second half: `g'·h₂ + g·m₃ + φ'·h₁ + φ·m₂`. -/
def trace3 (p : Fin 64) (q : Fin 512) : EReal :=
  ((at1 dgt q * h2 (ix2 p q) + at1 g q * gm3 (ix2 p q)) + at1 dpt q * h1 (ix2 p q)) + at1 phi q * gm2 (ix2 p q)

/-- A weight trace that gains the input: `g·A − φ·B + n·x (b, d)`. -/
def planeSubIn (b : Fin 64) (d q : Fin 512) : EReal :=
  (at1 g q * pa (ix3 b d q) - at1 phi q * pb (ix3 b d q)) + at1 norm q * x (ix2 b d)
/-- `g·A + φ·B + n·x (b, d)`. -/
def planeAddIn (b : Fin 64) (d q : Fin 512) : EReal :=
  (at1 g q * pa (ix3 b d q) + at1 phi q * pb (ix3 b d q)) + at1 norm q * x (ix2 b d)
/-- A weight trace without the input: `g·A − φ·B`. -/
def planeSub (b : Fin 64) (d q : Fin 512) : EReal :=
  at1 g q * pa (ix3 b d q) - at1 phi q * pb (ix3 b d q)
/-- `g·A + φ·B`. -/
def planeAdd (b : Fin 64) (d q : Fin 512) : EReal :=
  at1 g q * pa (ix3 b d q) + at1 phi q * pb (ix3 b d q)

end Cert.TraceSpec

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.SmallBody.lean ====
/-
  The small call's body, read at an entry `(p, q)`.

  The body loads whole arrays, so its six stored values are pointwise expressions of them, except for two things:
  a coefficient row is spread down the 64 batch rows (the entry under column `q` is the row's `q`-th coefficient),
  and the input is multiplied with a weight matrix. The product is taken after a change of float format on both
  factors, which is the identity on the extended reals, and is accumulated into the zero matrix, so its entry is the
  plain sum over the 512 inputs. With these two readings each stored value is the specification's entry.
-/
import proofs.«146985_j4964982194384_2_alg».proof.Proof.Gen.KernelIdeal.Skeleton
import proofs.«146985_j4964982194384_2_alg».proof.Proof.Spec
import proofs.«146985_j4964982194384_2_alg».proof.Proof.LibPlainMatmul
import Idealize.ShloMosaic.Lib.Pipeline.Value
import Idealize.ShloMosaic.Lib.ValueLayout
import Idealize.ShloMosaic.Lib.ValueIdx

noncomputable section

namespace Cert.KernelIdeal.SmallBody

open Cert.KernelIdeal Cert.KernelIdeal.Gen Cert.TraceSpec
open Idealize.ShloMosaic Idealize.ShloMosaic.ValueIdx

/-- A coefficient row spread down the batch reads, under column `q`, the row's coefficient `q`. -/
theorem coef_apply {α : Type} (v : S1x512.Idx → α) (p : Fin 64) (q : Fin 512) :
    broadcastTo S64x512 (shapeCast S1x512 v shapeCasts_S1x512_S1x512) broadcasts_S1x512_S64x512 (ix2 p q)
      = v (ix2 (0 : Fin 1) q) := by
  rw [shapeCast_self]
  exact broadcastTo_1b_ab_apply v _ p q

/-- The product of the input and a weight matrix, both after the format change, into zero: the projection. -/
theorem prod_apply (x : Vec Ideal S64x512 .f32) (w : Vec Ideal S512x512 .f32) (p : Fin 64) (q : Fin 512) :
    matmul (F := Ideal) dot_S64x512_S512x512_S64x512_1_0_0_1_n_n none (truncf (F := Ideal) .bf16 x bitsLt_bf16_f32)
      (truncf (F := Ideal) .bf16 w bitsLt_bf16_f32) (constant (F := Ideal) S64x512 .f32 0x00000000#32) (ix2 p q) = proj x w p q :=
  Cert.LibPlainMatmul.matmul_plain_zero_apply _ rfl none _ _ p q

variable (x h1 h2 gm0 gm1 gm2 gm3 : Vec Ideal S64x512 .f32) (w : Vec Ideal S512x512 .f32)
variable (g phi norm dgr dpr dgt dpt dnr : Vec Ideal S1x512 .f32) (p : Fin 64) (q : Fin 512)

theorem state1_pay :
    k0_pay15 (k0_pay5 x w) (k0_pay7 g) (k0_pay8 phi) (k0_pay9 norm) h1 h2 (ix2 p q)
      = state1 g phi norm x h1 h2 w p q := by
  simp only [k0_pay15, k0_pay5, k0_pay4, k0_pay7, k0_pay8, k0_pay9, mulf_apply, addf_apply, subf_apply,
    coef_apply, prod_apply]
  rfl

theorem state2_pay :
    k0_pay16 (k0_pay6 x w) (k0_pay7 g) (k0_pay8 phi) (k0_pay9 norm) h1 h2 (ix2 p q)
      = state2 g phi norm x h1 h2 w p q := by
  simp only [k0_pay16, k0_pay6, k0_pay4, k0_pay7, k0_pay8, k0_pay9, mulf_apply, addf_apply, subf_apply,
    coef_apply, prod_apply]
  rfl

theorem trace0_pay :
    k0_pay17 (k0_pay5 x w) (k0_pay7 g) (k0_pay8 phi) (k0_pay10 dgr) (k0_pay11 dpr) (k0_pay14 dnr) h1 h2 gm0 gm1 (ix2 p q)
      = trace0 g phi dgr dpr dnr x h1 h2 gm0 gm1 w p q := by
  simp only [k0_pay17, k0_pay5, k0_pay4, k0_pay7, k0_pay8, k0_pay10, k0_pay11, k0_pay14, mulf_apply, addf_apply,
    subf_apply, coef_apply, prod_apply]
  rfl

theorem trace1_pay :
    k0_pay1 (k0_pay6 x w) (k0_pay14 dnr)
        (k0_pay18 (k0_pay7 g) (k0_pay8 phi) (k0_pay10 dgr) (k0_pay11 dpr) h1 h2 gm0 gm1) (ix2 p q)
      = trace1 g phi dgr dpr dnr x h1 h2 gm0 gm1 w p q := by
  simp only [k0_pay1, k0_pay18, k0_pay6, k0_pay4, k0_pay7, k0_pay8, k0_pay10, k0_pay11, k0_pay14, mulf_apply,
    addf_apply, subf_apply, coef_apply, prod_apply]
  rfl

theorem trace2_pay :
    k0_pay2 (k0_pay7 g) (k0_pay8 phi) (k0_pay12 dgt) (k0_pay13 dpt) h1 h2 gm2 gm3 (ix2 p q)
      = trace2 g phi dgt dpt h1 h2 gm2 gm3 p q := by
  simp only [k0_pay2, k0_pay7, k0_pay8, k0_pay12, k0_pay13, mulf_apply, addf_apply, subf_apply, coef_apply]
  rfl

theorem trace3_pay :
    k0_pay3 (k0_pay7 g) (k0_pay8 phi) (k0_pay12 dgt) (k0_pay13 dpt) h1 h2 gm2 gm3 (ix2 p q)
      = trace3 g phi dgt dpt h1 h2 gm2 gm3 p q := by
  simp only [k0_pay3, k0_pay7, k0_pay8, k0_pay12, k0_pay13, mulf_apply, addf_apply, subf_apply, coef_apply]
  rfl

/-! ## The same, as whole arrays -/

theorem state1_fn :
    k0_pay15 (k0_pay5 x w) (k0_pay7 g) (k0_pay8 phi) (k0_pay9 norm) h1 h2 = onMat (state1 g phi norm x h1 h2 w) :=
  funext fun j => by
    obtain ⟨p, q, rfl⟩ : ∃ (p : Fin 64) (q : Fin 512), j = ix2 p q := ⟨j 0, j 1, eq_ix2 j⟩
    exact state1_pay _ _ _ _ _ _ _ p q

theorem state2_fn :
    k0_pay16 (k0_pay6 x w) (k0_pay7 g) (k0_pay8 phi) (k0_pay9 norm) h1 h2 = onMat (state2 g phi norm x h1 h2 w) :=
  funext fun j => by
    obtain ⟨p, q, rfl⟩ : ∃ (p : Fin 64) (q : Fin 512), j = ix2 p q := ⟨j 0, j 1, eq_ix2 j⟩
    exact state2_pay _ _ _ _ _ _ _ p q

theorem trace0_fn :
    k0_pay17 (k0_pay5 x w) (k0_pay7 g) (k0_pay8 phi) (k0_pay10 dgr) (k0_pay11 dpr) (k0_pay14 dnr) h1 h2 gm0 gm1
      = onMat (trace0 g phi dgr dpr dnr x h1 h2 gm0 gm1 w) :=
  funext fun j => by
    obtain ⟨p, q, rfl⟩ : ∃ (p : Fin 64) (q : Fin 512), j = ix2 p q := ⟨j 0, j 1, eq_ix2 j⟩
    exact trace0_pay _ _ _ _ _ _ _ _ _ _ _ p q

theorem trace1_fn :
    k0_pay1 (k0_pay6 x w) (k0_pay14 dnr)
        (k0_pay18 (k0_pay7 g) (k0_pay8 phi) (k0_pay10 dgr) (k0_pay11 dpr) h1 h2 gm0 gm1)
      = onMat (trace1 g phi dgr dpr dnr x h1 h2 gm0 gm1 w) :=
  funext fun j => by
    obtain ⟨p, q, rfl⟩ : ∃ (p : Fin 64) (q : Fin 512), j = ix2 p q := ⟨j 0, j 1, eq_ix2 j⟩
    exact trace1_pay _ _ _ _ _ _ _ _ _ _ _ p q

theorem trace2_fn :
    k0_pay2 (k0_pay7 g) (k0_pay8 phi) (k0_pay12 dgt) (k0_pay13 dpt) h1 h2 gm2 gm3
      = onMat (trace2 g phi dgt dpt h1 h2 gm2 gm3) :=
  funext fun j => by
    obtain ⟨p, q, rfl⟩ : ∃ (p : Fin 64) (q : Fin 512), j = ix2 p q := ⟨j 0, j 1, eq_ix2 j⟩
    exact trace2_pay _ _ _ _ _ _ _ _ p q

theorem trace3_fn :
    k0_pay3 (k0_pay7 g) (k0_pay8 phi) (k0_pay12 dgt) (k0_pay13 dpt) h1 h2 gm2 gm3
      = onMat (trace3 g phi dgt dpt h1 h2 gm2 gm3) :=
  funext fun j => by
    obtain ⟨p, q, rfl⟩ : ∃ (p : Fin 64) (q : Fin 512), j = ix2 p q := ⟨j 0, j 1, eq_ix2 j⟩
    exact trace3_pay _ _ _ _ _ _ _ _ p q

end Cert.KernelIdeal.SmallBody

end
-- ==== Proof.SmallArrays.lean ====
/-
  The small call: from its one grid point to the six result arrays.

  The grid has a single point and every window's block is its whole array, so what the point writes back is the
  body's stored value read on whole arrays, and that single block covers the result. The arrays the call finds
  are the arguments as launched and the eight coefficient rows the host operations before it have computed; the
  rows are named by the reference's own stages, which are the same operations of the same two parameter rows.
-/
import proofs.«146985_j4964982194384_2_alg».proof.Proof.Gen.KernelIdeal.Frame
import proofs.«146985_j4964982194384_2_alg».proof.Proof.Gen.ReferenceIdeal.Read
import proofs.«146985_j4964982194384_2_alg».proof.Proof.Spec
import proofs.«146985_j4964982194384_2_alg».proof.Proof.SmallBody

set_option maxRecDepth 16384

noncomputable section

namespace Cert.KernelIdeal.SmallArrays

open Cert.KernelIdeal Cert.KernelIdeal.Gen Cert.TraceSpec
open Idealize.ShloMosaic Idealize.ShloMosaic.TcCoe Idealize.ShloMosaic.ValueIdx Idealize.SL.Sem Idealize.ShloMosaic.StableHlo
open Cert.ReferenceIdeal.Read (val_main_v5 val_main_v7 val_main_v11 val_main_v14 val_main_v16 val_main_v18 val_main_v19 val_main_v22)

theorem hz2 : (![0, 0] : Fin 2 → Nat) = fun _ => 0 := funext fun a => by fin_cases a <;> rfl

/-! ## Every block of the small call is a whole array

The grid has one point and every index map is constantly zero, so a block's entry `y` sits at the array's
`0 · size + 1 · y = y`. -/

section Blocks
variable {F : FTy → Type} [FloatOps F]
variable (V : (c : Dev nD) → (b : Ref sig .tc) → Buf (Elt F) ((c : Thread nD τ).loc b))

set_option hygiene false in
/-- An input block read at `y` is the array at `y`: coordinate by coordinate `0 · size + 1 · y = y`. -/
local macro "whole_block" win:ident ref:ident s0:num s1:num : tactic => `(tactic| (
  funext y
  unfold iblk0
  rw [View.read_apply]
  show V c $ref _ = V c $ref y
  refine congrArg (V c $ref) (funext fun a => Fin.ext ?_)
  match a with
  | ⟨0, _⟩ => (show ($win).index t (0 : Fin 2) * $s0 + 1 * (y 0).val = (y 0).val; rw [show ($win).index t (0 : Fin 2) = 0 from rfl]; omega)
  | ⟨1, _⟩ => (show ($win).index t (1 : Fin 2) * $s1 + 1 * (y 1).val = (y 1).val; rw [show ($win).index t (1 : Fin 2) = 0 from rfl]; omega)))

theorem blk0_0 (c : Dev nD) (t : Fin cfg0.N) : iblk0 V c 0 t = V c main_arg0 := by
  whole_block win0_0 main_arg0 64 512
theorem blk0_1 (c : Dev nD) (t : Fin cfg0.N) : iblk0 V c 1 t = V c main_arg1 := by
  whole_block win0_1 main_arg1 64 512
theorem blk0_2 (c : Dev nD) (t : Fin cfg0.N) : iblk0 V c 2 t = V c main_arg2 := by
  whole_block win0_2 main_arg2 64 512
theorem blk0_3 (c : Dev nD) (t : Fin cfg0.N) : iblk0 V c 3 t = V c main_arg3 := by
  whole_block win0_3 main_arg3 64 512
theorem blk0_4 (c : Dev nD) (t : Fin cfg0.N) : iblk0 V c 4 t = V c main_arg4 := by
  whole_block win0_4 main_arg4 64 512
theorem blk0_5 (c : Dev nD) (t : Fin cfg0.N) : iblk0 V c 5 t = V c main_arg5 := by
  whole_block win0_5 main_arg5 64 512
theorem blk0_6 (c : Dev nD) (t : Fin cfg0.N) : iblk0 V c 6 t = V c main_arg6 := by
  whole_block win0_6 main_arg6 64 512
theorem blk0_7 (c : Dev nD) (t : Fin cfg0.N) : iblk0 V c 7 t = V c main_arg13 := by
  whole_block win0_7 main_arg13 512 512
theorem blk0_8 (c : Dev nD) (t : Fin cfg0.N) : iblk0 V c 8 t = V c main_arg14 := by
  whole_block win0_8 main_arg14 512 512
theorem blk0_9 (c : Dev nD) (t : Fin cfg0.N) : iblk0 V c 9 t = V c main_v5 := by
  whole_block win0_9 main_v5 1 512
theorem blk0_10 (c : Dev nD) (t : Fin cfg0.N) : iblk0 V c 10 t = V c main_v7 := by
  whole_block win0_10 main_v7 1 512
theorem blk0_11 (c : Dev nD) (t : Fin cfg0.N) : iblk0 V c 11 t = V c main_v11 := by
  whole_block win0_11 main_v11 1 512
theorem blk0_12 (c : Dev nD) (t : Fin cfg0.N) : iblk0 V c 12 t = V c main_v14 := by
  whole_block win0_12 main_v14 1 512
theorem blk0_13 (c : Dev nD) (t : Fin cfg0.N) : iblk0 V c 13 t = V c main_v16 := by
  whole_block win0_13 main_v16 1 512
theorem blk0_14 (c : Dev nD) (t : Fin cfg0.N) : iblk0 V c 14 t = V c main_v18 := by
  whole_block win0_14 main_v18 1 512
theorem blk0_15 (c : Dev nD) (t : Fin cfg0.N) : iblk0 V c 15 t = V c main_v19 := by
  whole_block win0_15 main_v19 1 512
theorem blk0_16 (c : Dev nD) (t : Fin cfg0.N) : iblk0 V c 16 t = V c main_v22 := by
  whole_block win0_16 main_v22 1 512

set_option hygiene false in
/-- An output block's entry `j` is the array's entry `j`. -/
local macro "whole_out" win:ident : tactic => `(tactic| (
  funext a
  apply Fin.ext
  match a with
  | ⟨0, _⟩ => (show ($win).index t (0 : Fin 2) * 64 + 1 * (j 0).val = (j 0).val; rw [show ($win).index t (0 : Fin 2) = 0 from rfl]; omega)
  | ⟨1, _⟩ => (show ($win).index t (1 : Fin 2) * 512 + 1 * (j 1).val = (j 1).val; rw [show ($win).index t (1 : Fin 2) = 0 from rfl]; omega)))

theorem out0_17_at (t : Fin cfg0.N) (j : S64x512.Idx) : ((cfg0.win 17).blk t).view.emb j = j := by
  whole_out win0_17
theorem out0_18_at (t : Fin cfg0.N) (j : S64x512.Idx) : ((cfg0.win 18).blk t).view.emb j = j := by
  whole_out win0_18
theorem out0_19_at (t : Fin cfg0.N) (j : S64x512.Idx) : ((cfg0.win 19).blk t).view.emb j = j := by
  whole_out win0_19
theorem out0_20_at (t : Fin cfg0.N) (j : S64x512.Idx) : ((cfg0.win 20).blk t).view.emb j = j := by
  whole_out win0_20
theorem out0_21_at (t : Fin cfg0.N) (j : S64x512.Idx) : ((cfg0.win 21).blk t).view.emb j = j := by
  whole_out win0_21
theorem out0_22_at (t : Fin cfg0.N) (j : S64x512.Idx) : ((cfg0.win 22).blk t).view.emb j = j := by
  whole_out win0_22

end Blocks

/-! ## What the one point writes back, and the arrays after the call -/

section Flushed
variable (V : (c : Dev nD) → (b : Ref sig .tc) → Buf (Elt Ideal) ((c : Thread nD τ).loc b))

/-- The grid's one point. -/
def pt0 : Fin cfg0.N := ⟨0, by decide⟩

theorem flushed17 (c : Dev nD) (t : Fin cfg0.N) :
    (dat0 V c).flushed 17 t = ((cfg0.win 17).blk t).view.read (Elt Ideal)
      (onMat (state1 (V c main_v5) (V c main_v7) (V c main_v11) (V c main_arg0) (V c main_arg1) (V c main_arg2) (V c main_arg13))) := by
  show (cfg0.win 17).cut (grid0.coords t) ((dat0 V c).after 17 t) = _
  rw [after0_17]
  unfold out0_17
  rw [View.canon_unit_zero hz2]
  simp only [View.ld_unit_zero (S := S64x512) hz2, View.ld_unit_zero (S := S512x512) hz2, View.ld_unit_zero (S := S1x512) hz2]
  rw [blk0_0, blk0_7, blk0_9, blk0_10, blk0_11, blk0_1, blk0_2]
  rw [SmallBody.state1_fn]
  funext j
  rw [View.read_apply, out0_17_at]
  rfl

theorem covered17 (i : S64x512.Idx) :
    ∃ t : Fin cfg0.N, (cfg0.win 17).flush t = true ∧ i ∈ ((cfg0.win 17).blk t).view.set :=
  ⟨pt0, flush0_17 _, by
    show i ∈ ((View.whole main_v23_0).slice (win0_17.rect pt0)).set
    rw [View.set_slice_whole, Rect.mem_set_unit]
    intro a
    have h0 : (i 0 : Nat) < 64 := (i 0).isLt
    have h1 : (i 1 : Nat) < 512 := (i 1).isLt
    match a with
    | ⟨0, _⟩ => exact ⟨Nat.zero_le _, h0⟩
    | ⟨1, _⟩ => exact ⟨Nat.zero_le _, h1⟩⟩

theorem final17 (c : Dev nD) : (dat0 V c).arrAt 17 cfg0.N
    = onMat (state1 (V c main_v5) (V c main_v7) (V c main_v11) (V c main_arg0) (V c main_arg1) (V c main_arg2) (V c main_arg13)) :=
  (dat0 V c).arrAt_eq_of_cover 17 _ (fun t _ => flushed17 V c t) covered17

theorem flushed18 (c : Dev nD) (t : Fin cfg0.N) :
    (dat0 V c).flushed 18 t = ((cfg0.win 18).blk t).view.read (Elt Ideal)
      (onMat (state2 (V c main_v5) (V c main_v7) (V c main_v11) (V c main_arg0) (V c main_arg1) (V c main_arg2) (V c main_arg14))) := by
  show (cfg0.win 18).cut (grid0.coords t) ((dat0 V c).after 18 t) = _
  rw [after0_18]
  unfold out0_18
  rw [View.canon_unit_zero hz2]
  simp only [View.ld_unit_zero (S := S64x512) hz2, View.ld_unit_zero (S := S512x512) hz2, View.ld_unit_zero (S := S1x512) hz2]
  rw [blk0_0, blk0_8, blk0_9, blk0_10, blk0_11, blk0_1, blk0_2]
  rw [SmallBody.state2_fn]
  funext j
  rw [View.read_apply, out0_18_at]
  rfl

theorem covered18 (i : S64x512.Idx) :
    ∃ t : Fin cfg0.N, (cfg0.win 18).flush t = true ∧ i ∈ ((cfg0.win 18).blk t).view.set :=
  ⟨pt0, flush0_18 _, by
    show i ∈ ((View.whole main_v23_1).slice (win0_18.rect pt0)).set
    rw [View.set_slice_whole, Rect.mem_set_unit]
    intro a
    have h0 : (i 0 : Nat) < 64 := (i 0).isLt
    have h1 : (i 1 : Nat) < 512 := (i 1).isLt
    match a with
    | ⟨0, _⟩ => exact ⟨Nat.zero_le _, h0⟩
    | ⟨1, _⟩ => exact ⟨Nat.zero_le _, h1⟩⟩

theorem final18 (c : Dev nD) : (dat0 V c).arrAt 18 cfg0.N
    = onMat (state2 (V c main_v5) (V c main_v7) (V c main_v11) (V c main_arg0) (V c main_arg1) (V c main_arg2) (V c main_arg14)) :=
  (dat0 V c).arrAt_eq_of_cover 18 _ (fun t _ => flushed18 V c t) covered18

theorem flushed19 (c : Dev nD) (t : Fin cfg0.N) :
    (dat0 V c).flushed 19 t = ((cfg0.win 19).blk t).view.read (Elt Ideal)
      (onMat (trace0 (V c main_v5) (V c main_v7) (V c main_v14) (V c main_v16) (V c main_v22) (V c main_arg0) (V c main_arg1) (V c main_arg2) (V c main_arg3) (V c main_arg4) (V c main_arg13))) := by
  show (cfg0.win 19).cut (grid0.coords t) ((dat0 V c).after 19 t) = _
  rw [after0_19]
  unfold out0_19
  rw [View.canon_unit_zero hz2]
  simp only [View.ld_unit_zero (S := S64x512) hz2, View.ld_unit_zero (S := S512x512) hz2, View.ld_unit_zero (S := S1x512) hz2]
  rw [blk0_0, blk0_7, blk0_9, blk0_10, blk0_12, blk0_13, blk0_16, blk0_1, blk0_2, blk0_3, blk0_4]
  rw [SmallBody.trace0_fn]
  funext j
  rw [View.read_apply, out0_19_at]
  rfl

theorem covered19 (i : S64x512.Idx) :
    ∃ t : Fin cfg0.N, (cfg0.win 19).flush t = true ∧ i ∈ ((cfg0.win 19).blk t).view.set :=
  ⟨pt0, flush0_19 _, by
    show i ∈ ((View.whole main_v23_2).slice (win0_19.rect pt0)).set
    rw [View.set_slice_whole, Rect.mem_set_unit]
    intro a
    have h0 : (i 0 : Nat) < 64 := (i 0).isLt
    have h1 : (i 1 : Nat) < 512 := (i 1).isLt
    match a with
    | ⟨0, _⟩ => exact ⟨Nat.zero_le _, h0⟩
    | ⟨1, _⟩ => exact ⟨Nat.zero_le _, h1⟩⟩

theorem final19 (c : Dev nD) : (dat0 V c).arrAt 19 cfg0.N
    = onMat (trace0 (V c main_v5) (V c main_v7) (V c main_v14) (V c main_v16) (V c main_v22) (V c main_arg0) (V c main_arg1) (V c main_arg2) (V c main_arg3) (V c main_arg4) (V c main_arg13)) :=
  (dat0 V c).arrAt_eq_of_cover 19 _ (fun t _ => flushed19 V c t) covered19

theorem flushed20 (c : Dev nD) (t : Fin cfg0.N) :
    (dat0 V c).flushed 20 t = ((cfg0.win 20).blk t).view.read (Elt Ideal)
      (onMat (trace1 (V c main_v5) (V c main_v7) (V c main_v14) (V c main_v16) (V c main_v22) (V c main_arg0) (V c main_arg1) (V c main_arg2) (V c main_arg3) (V c main_arg4) (V c main_arg14))) := by
  show (cfg0.win 20).cut (grid0.coords t) ((dat0 V c).after 20 t) = _
  rw [after0_20]
  unfold out0_20
  rw [View.canon_unit_zero hz2]
  simp only [View.ld_unit_zero (S := S64x512) hz2, View.ld_unit_zero (S := S512x512) hz2, View.ld_unit_zero (S := S1x512) hz2]
  rw [blk0_0, blk0_8, blk0_16, blk0_9, blk0_10, blk0_12, blk0_13, blk0_1, blk0_2, blk0_3, blk0_4]
  rw [SmallBody.trace1_fn]
  funext j
  rw [View.read_apply, out0_20_at]
  rfl

theorem covered20 (i : S64x512.Idx) :
    ∃ t : Fin cfg0.N, (cfg0.win 20).flush t = true ∧ i ∈ ((cfg0.win 20).blk t).view.set :=
  ⟨pt0, flush0_20 _, by
    show i ∈ ((View.whole main_v23_3).slice (win0_20.rect pt0)).set
    rw [View.set_slice_whole, Rect.mem_set_unit]
    intro a
    have h0 : (i 0 : Nat) < 64 := (i 0).isLt
    have h1 : (i 1 : Nat) < 512 := (i 1).isLt
    match a with
    | ⟨0, _⟩ => exact ⟨Nat.zero_le _, h0⟩
    | ⟨1, _⟩ => exact ⟨Nat.zero_le _, h1⟩⟩

theorem final20 (c : Dev nD) : (dat0 V c).arrAt 20 cfg0.N
    = onMat (trace1 (V c main_v5) (V c main_v7) (V c main_v14) (V c main_v16) (V c main_v22) (V c main_arg0) (V c main_arg1) (V c main_arg2) (V c main_arg3) (V c main_arg4) (V c main_arg14)) :=
  (dat0 V c).arrAt_eq_of_cover 20 _ (fun t _ => flushed20 V c t) covered20

theorem flushed21 (c : Dev nD) (t : Fin cfg0.N) :
    (dat0 V c).flushed 21 t = ((cfg0.win 21).blk t).view.read (Elt Ideal)
      (onMat (trace2 (V c main_v5) (V c main_v7) (V c main_v18) (V c main_v19) (V c main_arg1) (V c main_arg2) (V c main_arg5) (V c main_arg6))) := by
  show (cfg0.win 21).cut (grid0.coords t) ((dat0 V c).after 21 t) = _
  rw [after0_21]
  unfold out0_21
  rw [View.canon_unit_zero hz2]
  simp only [View.ld_unit_zero (S := S64x512) hz2, View.ld_unit_zero (S := S512x512) hz2, View.ld_unit_zero (S := S1x512) hz2]
  rw [blk0_9, blk0_10, blk0_14, blk0_15, blk0_1, blk0_2, blk0_5, blk0_6]
  rw [SmallBody.trace2_fn]
  funext j
  rw [View.read_apply, out0_21_at]
  rfl

theorem covered21 (i : S64x512.Idx) :
    ∃ t : Fin cfg0.N, (cfg0.win 21).flush t = true ∧ i ∈ ((cfg0.win 21).blk t).view.set :=
  ⟨pt0, flush0_21 _, by
    show i ∈ ((View.whole main_v23_4).slice (win0_21.rect pt0)).set
    rw [View.set_slice_whole, Rect.mem_set_unit]
    intro a
    have h0 : (i 0 : Nat) < 64 := (i 0).isLt
    have h1 : (i 1 : Nat) < 512 := (i 1).isLt
    match a with
    | ⟨0, _⟩ => exact ⟨Nat.zero_le _, h0⟩
    | ⟨1, _⟩ => exact ⟨Nat.zero_le _, h1⟩⟩

theorem final21 (c : Dev nD) : (dat0 V c).arrAt 21 cfg0.N
    = onMat (trace2 (V c main_v5) (V c main_v7) (V c main_v18) (V c main_v19) (V c main_arg1) (V c main_arg2) (V c main_arg5) (V c main_arg6)) :=
  (dat0 V c).arrAt_eq_of_cover 21 _ (fun t _ => flushed21 V c t) covered21

theorem flushed22 (c : Dev nD) (t : Fin cfg0.N) :
    (dat0 V c).flushed 22 t = ((cfg0.win 22).blk t).view.read (Elt Ideal)
      (onMat (trace3 (V c main_v5) (V c main_v7) (V c main_v18) (V c main_v19) (V c main_arg1) (V c main_arg2) (V c main_arg5) (V c main_arg6))) := by
  show (cfg0.win 22).cut (grid0.coords t) ((dat0 V c).after 22 t) = _
  rw [after0_22]
  unfold out0_22
  rw [View.canon_unit_zero hz2]
  simp only [View.ld_unit_zero (S := S64x512) hz2, View.ld_unit_zero (S := S512x512) hz2, View.ld_unit_zero (S := S1x512) hz2]
  rw [blk0_9, blk0_10, blk0_14, blk0_15, blk0_1, blk0_2, blk0_5, blk0_6]
  rw [SmallBody.trace3_fn]
  funext j
  rw [View.read_apply, out0_22_at]
  rfl

theorem covered22 (i : S64x512.Idx) :
    ∃ t : Fin cfg0.N, (cfg0.win 22).flush t = true ∧ i ∈ ((cfg0.win 22).blk t).view.set :=
  ⟨pt0, flush0_22 _, by
    show i ∈ ((View.whole main_v23_5).slice (win0_22.rect pt0)).set
    rw [View.set_slice_whole, Rect.mem_set_unit]
    intro a
    have h0 : (i 0 : Nat) < 64 := (i 0).isLt
    have h1 : (i 1 : Nat) < 512 := (i 1).isLt
    match a with
    | ⟨0, _⟩ => exact ⟨Nat.zero_le _, h0⟩
    | ⟨1, _⟩ => exact ⟨Nat.zero_le _, h1⟩⟩

theorem final22 (c : Dev nD) : (dat0 V c).arrAt 22 cfg0.N
    = onMat (trace3 (V c main_v5) (V c main_v7) (V c main_v18) (V c main_v19) (V c main_arg1) (V c main_arg2) (V c main_arg5) (V c main_arg6)) :=
  (dat0 V c).arrAt_eq_of_cover 22 _ (fun t _ => flushed22 V c t) covered22

end Flushed

/-! ## The arrays the call finds: the arguments, and the coefficient rows computed before it -/

variable (m : (ℓ : Loc nD τ sig) → Buf (Elt Ideal) ℓ) (ρ : Dev nD → PrngReg)

theorem coef_v5 (c : Dev nD) : V1 m ρ c main_v5 = val_main_v5 (F := Ideal) (m ((c : Thread nD τ).loc main_arg11)) (m ((c : Thread nD τ).loc main_arg12)) := by
  show StableHlo.after hostOps0 (W0 m ρ c) (Proc.devRef .tc main_v5) = _
  after_results
  rfl
theorem coef_v7 (c : Dev nD) : V1 m ρ c main_v7 = val_main_v7 (F := Ideal) (m ((c : Thread nD τ).loc main_arg11)) (m ((c : Thread nD τ).loc main_arg12)) := by
  show StableHlo.after hostOps0 (W0 m ρ c) (Proc.devRef .tc main_v7) = _
  after_results
  rfl
theorem coef_v11 (c : Dev nD) : V1 m ρ c main_v11 = val_main_v11 (F := Ideal) (m ((c : Thread nD τ).loc main_arg11)) := by
  show StableHlo.after hostOps0 (W0 m ρ c) (Proc.devRef .tc main_v11) = _
  after_results
  rfl
theorem coef_v14 (c : Dev nD) : V1 m ρ c main_v14 = val_main_v14 (F := Ideal) (m ((c : Thread nD τ).loc main_arg11)) (m ((c : Thread nD τ).loc main_arg12)) := by
  show StableHlo.after hostOps0 (W0 m ρ c) (Proc.devRef .tc main_v14) = _
  after_results
  rfl
theorem coef_v16 (c : Dev nD) : V1 m ρ c main_v16 = val_main_v16 (F := Ideal) (m ((c : Thread nD τ).loc main_arg11)) (m ((c : Thread nD τ).loc main_arg12)) := by
  show StableHlo.after hostOps0 (W0 m ρ c) (Proc.devRef .tc main_v16) = _
  after_results
  rfl
theorem coef_v18 (c : Dev nD) : V1 m ρ c main_v18 = val_main_v18 (F := Ideal) (m ((c : Thread nD τ).loc main_arg11)) (m ((c : Thread nD τ).loc main_arg12)) := by
  show StableHlo.after hostOps0 (W0 m ρ c) (Proc.devRef .tc main_v18) = _
  after_results
  rfl
theorem coef_v19 (c : Dev nD) : V1 m ρ c main_v19 = val_main_v19 (F := Ideal) (m ((c : Thread nD τ).loc main_arg11)) (m ((c : Thread nD τ).loc main_arg12)) := by
  show StableHlo.after hostOps0 (W0 m ρ c) (Proc.devRef .tc main_v19) = _
  after_results
  rfl
set_option maxHeartbeats 2000000 in
theorem coef_v22 (c : Dev nD) : V1 m ρ c main_v22 = val_main_v22 (F := Ideal) (m ((c : Thread nD τ).loc main_arg11)) := by
  show StableHlo.after hostOps0 (W0 m ρ c) (Proc.devRef .tc main_v22) = _
  after_results
  rfl
theorem kept_arg0 (c : Dev nD) : V1 m ρ c main_arg0 = m ((c : Thread nD τ).loc main_arg0) := by
  show StableHlo.after hostOps0 (W0 m ρ c) (Proc.devRef .tc main_arg0) = _
  after_results
theorem kept_arg1 (c : Dev nD) : V1 m ρ c main_arg1 = m ((c : Thread nD τ).loc main_arg1) := by
  show StableHlo.after hostOps0 (W0 m ρ c) (Proc.devRef .tc main_arg1) = _
  after_results
theorem kept_arg2 (c : Dev nD) : V1 m ρ c main_arg2 = m ((c : Thread nD τ).loc main_arg2) := by
  show StableHlo.after hostOps0 (W0 m ρ c) (Proc.devRef .tc main_arg2) = _
  after_results
theorem kept_arg3 (c : Dev nD) : V1 m ρ c main_arg3 = m ((c : Thread nD τ).loc main_arg3) := by
  show StableHlo.after hostOps0 (W0 m ρ c) (Proc.devRef .tc main_arg3) = _
  after_results
theorem kept_arg4 (c : Dev nD) : V1 m ρ c main_arg4 = m ((c : Thread nD τ).loc main_arg4) := by
  show StableHlo.after hostOps0 (W0 m ρ c) (Proc.devRef .tc main_arg4) = _
  after_results
theorem kept_arg5 (c : Dev nD) : V1 m ρ c main_arg5 = m ((c : Thread nD τ).loc main_arg5) := by
  show StableHlo.after hostOps0 (W0 m ρ c) (Proc.devRef .tc main_arg5) = _
  after_results
theorem kept_arg6 (c : Dev nD) : V1 m ρ c main_arg6 = m ((c : Thread nD τ).loc main_arg6) := by
  show StableHlo.after hostOps0 (W0 m ρ c) (Proc.devRef .tc main_arg6) = _
  after_results
theorem kept_arg13 (c : Dev nD) : V1 m ρ c main_arg13 = m ((c : Thread nD τ).loc main_arg13) := by
  show StableHlo.after hostOps0 (W0 m ρ c) (Proc.devRef .tc main_arg13) = _
  after_results
theorem kept_arg14 (c : Dev nD) : V1 m ρ c main_arg14 = m ((c : Thread nD τ).loc main_arg14) := by
  show StableHlo.after hostOps0 (W0 m ρ c) (Proc.devRef .tc main_arg14) = _
  after_results

/-! ## The six results as functions of the arguments -/

theorem small_state1 (c : Dev nD) : (dat0 (V1 m ρ) c).arrAt 17 cfg0.N
    = onMat (state1 (val_main_v5 (F := Ideal) (m ((c : Thread nD τ).loc main_arg11)) (m ((c : Thread nD τ).loc main_arg12))) (val_main_v7 (F := Ideal) (m ((c : Thread nD τ).loc main_arg11)) (m ((c : Thread nD τ).loc main_arg12))) (val_main_v11 (F := Ideal) (m ((c : Thread nD τ).loc main_arg11))) (m ((c : Thread nD τ).loc main_arg0)) (m ((c : Thread nD τ).loc main_arg1)) (m ((c : Thread nD τ).loc main_arg2)) (m ((c : Thread nD τ).loc main_arg13))) := by
  rw [final17 (V1 m ρ) c, coef_v5 m ρ c, coef_v7 m ρ c, coef_v11 m ρ c, kept_arg0 m ρ c, kept_arg1 m ρ c, kept_arg2 m ρ c, kept_arg13 m ρ c]

theorem small_state2 (c : Dev nD) : (dat0 (V1 m ρ) c).arrAt 18 cfg0.N
    = onMat (state2 (val_main_v5 (F := Ideal) (m ((c : Thread nD τ).loc main_arg11)) (m ((c : Thread nD τ).loc main_arg12))) (val_main_v7 (F := Ideal) (m ((c : Thread nD τ).loc main_arg11)) (m ((c : Thread nD τ).loc main_arg12))) (val_main_v11 (F := Ideal) (m ((c : Thread nD τ).loc main_arg11))) (m ((c : Thread nD τ).loc main_arg0)) (m ((c : Thread nD τ).loc main_arg1)) (m ((c : Thread nD τ).loc main_arg2)) (m ((c : Thread nD τ).loc main_arg14))) := by
  rw [final18 (V1 m ρ) c, coef_v5 m ρ c, coef_v7 m ρ c, coef_v11 m ρ c, kept_arg0 m ρ c, kept_arg1 m ρ c, kept_arg2 m ρ c, kept_arg14 m ρ c]

theorem small_trace0 (c : Dev nD) : (dat0 (V1 m ρ) c).arrAt 19 cfg0.N
    = onMat (trace0 (val_main_v5 (F := Ideal) (m ((c : Thread nD τ).loc main_arg11)) (m ((c : Thread nD τ).loc main_arg12))) (val_main_v7 (F := Ideal) (m ((c : Thread nD τ).loc main_arg11)) (m ((c : Thread nD τ).loc main_arg12))) (val_main_v14 (F := Ideal) (m ((c : Thread nD τ).loc main_arg11)) (m ((c : Thread nD τ).loc main_arg12))) (val_main_v16 (F := Ideal) (m ((c : Thread nD τ).loc main_arg11)) (m ((c : Thread nD τ).loc main_arg12))) (val_main_v22 (F := Ideal) (m ((c : Thread nD τ).loc main_arg11))) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg13))) := by
  rw [final19 (V1 m ρ) c, coef_v5 m ρ c, coef_v7 m ρ c, coef_v14 m ρ c, coef_v16 m ρ c, coef_v22 m ρ c, kept_arg0 m ρ c, kept_arg1 m ρ c, kept_arg2 m ρ c, kept_arg3 m ρ c, kept_arg4 m ρ c, kept_arg13 m ρ c]

theorem small_trace1 (c : Dev nD) : (dat0 (V1 m ρ) c).arrAt 20 cfg0.N
    = onMat (trace1 (val_main_v5 (F := Ideal) (m ((c : Thread nD τ).loc main_arg11)) (m ((c : Thread nD τ).loc main_arg12))) (val_main_v7 (F := Ideal) (m ((c : Thread nD τ).loc main_arg11)) (m ((c : Thread nD τ).loc main_arg12))) (val_main_v14 (F := Ideal) (m ((c : Thread nD τ).loc main_arg11)) (m ((c : Thread nD τ).loc main_arg12))) (val_main_v16 (F := Ideal) (m ((c : Thread nD τ).loc main_arg11)) (m ((c : Thread nD τ).loc main_arg12))) (val_main_v22 (F := Ideal) (m ((c : Thread nD τ).loc main_arg11))) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg14))) := by
  rw [final20 (V1 m ρ) c, coef_v5 m ρ c, coef_v7 m ρ c, coef_v14 m ρ c, coef_v16 m ρ c, coef_v22 m ρ c, kept_arg0 m ρ c, kept_arg1 m ρ c, kept_arg2 m ρ c, kept_arg3 m ρ c, kept_arg4 m ρ c, kept_arg14 m ρ c]

theorem small_trace2 (c : Dev nD) : (dat0 (V1 m ρ) c).arrAt 21 cfg0.N
    = onMat (trace2 (val_main_v5 (F := Ideal) (m ((c : Thread nD τ).loc main_arg11)) (m ((c : Thread nD τ).loc main_arg12))) (val_main_v7 (F := Ideal) (m ((c : Thread nD τ).loc main_arg11)) (m ((c : Thread nD τ).loc main_arg12))) (val_main_v18 (F := Ideal) (m ((c : Thread nD τ).loc main_arg11)) (m ((c : Thread nD τ).loc main_arg12))) (val_main_v19 (F := Ideal) (m ((c : Thread nD τ).loc main_arg11)) (m ((c : Thread nD τ).loc main_arg12))) (m ((c : Thread nD τ).loc main_arg1)) (m ((c : Thread nD τ).loc main_arg2)) (m ((c : Thread nD τ).loc main_arg5)) (m ((c : Thread nD τ).loc main_arg6))) := by
  rw [final21 (V1 m ρ) c, coef_v5 m ρ c, coef_v7 m ρ c, coef_v18 m ρ c, coef_v19 m ρ c, kept_arg1 m ρ c, kept_arg2 m ρ c, kept_arg5 m ρ c, kept_arg6 m ρ c]

theorem small_trace3 (c : Dev nD) : (dat0 (V1 m ρ) c).arrAt 22 cfg0.N
    = onMat (trace3 (val_main_v5 (F := Ideal) (m ((c : Thread nD τ).loc main_arg11)) (m ((c : Thread nD τ).loc main_arg12))) (val_main_v7 (F := Ideal) (m ((c : Thread nD τ).loc main_arg11)) (m ((c : Thread nD τ).loc main_arg12))) (val_main_v18 (F := Ideal) (m ((c : Thread nD τ).loc main_arg11)) (m ((c : Thread nD τ).loc main_arg12))) (val_main_v19 (F := Ideal) (m ((c : Thread nD τ).loc main_arg11)) (m ((c : Thread nD τ).loc main_arg12))) (m ((c : Thread nD τ).loc main_arg1)) (m ((c : Thread nD τ).loc main_arg2)) (m ((c : Thread nD τ).loc main_arg5)) (m ((c : Thread nD τ).loc main_arg6))) := by
  rw [final22 (V1 m ρ) c, coef_v5 m ρ c, coef_v7 m ρ c, coef_v18 m ρ c, coef_v19 m ρ c, kept_arg1 m ρ c, kept_arg2 m ρ c, kept_arg5 m ρ c, kept_arg6 m ρ c]

end Cert.KernelIdeal.SmallArrays

end
-- ==== Proof.LibRank3Layout.lean ====
/-
  Layout operations on rank-3 shapes, read at an index given by its coordinates.

  * A matrix `[a, b]` cast to `[a, b, 1]` (a trailing unit axis added): the element at `(i, j, u)` is the
    matrix's at `(i, j)`; both indices sit at the same row-major position, since the unit coordinate is `0`.
  * An `[a, b, 1]` array broadcast to `[a, b, c]`: the element at `(i, j, k)` is the operand's at `(i, j, 0)`;
    the broadcast copies along the unit axis and keeps the other two coordinates.
  * A `[1, b, c]` array broadcast to `[a, b, c]`: the element at `(i, j, k)` is the operand's one matrix at
    `(j, k)`, whatever the leading coordinate.
-/
import Idealize.ShloMosaic.Lib.ValueLayout

namespace Cert.LibRank3Layout

open Idealize.ShloMosaic Idealize.ShloMosaic.ValueIdx

variable {α : Type}

/-- An `[a, b]` array cast to `[a, b, 1]` reads, at `(i, j, u)`, the operand at `(i, j)`, whatever the unit
    coordinate `u`: the row-major positions are `i * b + j` and `(i * b + j) * 1 + u` with `u = 0`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand's one matrix at `(j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.LibRank3Layout
-- ==== Proof.LibMidAxisLayout.lean ====
/-
  Layout operations of small ranks read at an index given by its coordinates, beyond the leading-unit-axis cases:
  a unit axis inserted in the MIDDLE of a matrix and broadcast over, two axes MERGED into one and split again, a vector
  lifted to two leading unit axes and broadcast over both, and the unit axes of a rank-4 block dropped.

  Each statement reads one `vector.shape_cast` or `vector.broadcast` at `ixN …` as its operand at `ixM …`; the sizes are
  arbitrary naturals. A shape cast preserves the row-major position, so each cast lemma is one equation between two
  row-major positions; a broadcast reads coordinate `0` on the operand's unit axes and the result's own coordinate on the others.
-/
import Idealize.ShloMosaic.Lib.Pipeline.Value
import Idealize.ShloMosaic.Lib.ValueIdx
import Idealize.ShloMosaic.Lib.ValueLayout

namespace Cert.LibMidAxisLayout

open Idealize.ShloMosaic Idealize.ShloMosaic.ValueIdx

variable {α : Type}

/-! ## A unit axis in the middle -/

/-- An `[a, c]` matrix cast to `[a, 1, c]` reads, at `(p, u, q)`, the operand at `(p, q)`: the position
    `(p · 1 + u) · c + q` with `u = 0` is `p · c + q`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_three, Shape.rowMajor_val_two]
    show p.val * c + q.val = (p.val * 1 + u.val) * c + q.val
    rw [hu, Nat.mul_one, Nat.add_zero])

/-- An `[a, 1, c]` array broadcast to `[a, b, c]` reads, at `(p, u, q)`, the operand at `(p, 0, q)`: the same
    row for every `u`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (u : Fin b) (q : Fin c) :
    broadcastTo ⟨3, ![a, b, c]⟩ x h (ix3 p u q) = x (ix3 p (0 : Fin 1) q) := by
  refine broadcastTo_apply x h (ix3 p u q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A `[1, b, c]` array broadcast to `[a, b, c]` reads, at `(p, u, q)`, the operand at `(0, u, q)`: the same
    matrix for every `p`. -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (u : Fin b) (q : Fin c) :
    broadcastTo ⟨3, ![a, b, c]⟩ x h (ix3 p u q) = x (ix3 (0 : Fin 1) u q) := by
  refine broadcastTo_apply x h (ix3 p u q) (ix3 (0 : Fin 1) u q) fun ax => ?_
  match ax with
  | ⟨0, _⟩ => rfl
  | ⟨1, _⟩ =>
    show u.val = if b = 1 then 0 else u.val
    split
    · have := u.isLt; omega
    · rfl
  | ⟨2, _⟩ =>
    show q.val = if c = 1 then 0 else q.val
    split
    · have := q.isLt; omega
    · rfl

/-! ## Two axes merged into one, and split again -/

/-- An `[a, b, c]` array cast to `[m, c]` (so `m = a · b`) reads, at row `r = p · b + u` and column `q`, the
    operand at `(p, u, q)`. -/
theorem shapeCast_abc_mc_apply {a b c m : ℕ} (x : (⟨3, ![a, b, c]⟩ : Shape).Idx → α)
    (h : (⟨3, ![a, b, c]⟩ : Shape).ShapeCasts ⟨2, ![m, c]⟩) (p : Fin a) (u : Fin b) (q : Fin c) (r : Fin m)
    (hr : r.val = p.val * b + u.val) :
    shapeCast ⟨2, ![m, c]⟩ x h (ix2 r q) = x (ix3 p u q) :=
  shapeCast_apply x h _ _ (by
    rw [Shape.rowMajor_val_three, Shape.rowMajor_val_two]
    show (p.val * b + u.val) * c + q.val = r.val * c + q.val
    rw [hr])

/-- An `[m, c]` matrix cast to `[a, b, c]` (so `m = a · b`) reads, at `(p, u, q)`, the operand at row
    `r = p · b + u` and column `q`. -/
theorem shapeCast_mc_abc_apply {a b c m : ℕ} (x : (⟨2, ![m, c]⟩ : Shape).Idx → α)
    (h : (⟨2, ![m, c]⟩ : Shape).ShapeCasts ⟨3, ![a, b, c]⟩) (p : Fin a) (u : Fin b) (q : Fin c) (r : Fin m)
    (hr : r.val = p.val * b + u.val) :
    shapeCast ⟨3, ![a, b, c]⟩ x h (ix3 p u q) = x (ix2 r q) :=
  shapeCast_apply x h _ _ (by
    rw [Shape.rowMajor_val_three, Shape.rowMajor_val_two]
    show r.val * c + q.val = (p.val * b + u.val) * c + q.val
    rw [hr])

/-! ## A vector under two leading unit axes -/

/-- An `[n]` vector cast to `[1, 1, n]` reads, at `(u, w, q)`, the operand at `q`. -/
theorem shapeCast_n_11n_apply {n : ℕ} (x : (⟨1, ![n]⟩ : Shape).Idx → α)
    (h : (⟨1, ![n]⟩ : Shape).ShapeCasts ⟨3, ![1, 1, n]⟩) (u w : Fin 1) (q : Fin n) :
    shapeCast ⟨3, ![1, 1, n]⟩ x h (ix3 u w q) = x (ix1 q) :=
  shapeCast_apply x h _ _ (by
    have hu : u.val = 0 := by omega
    have hw : w.val = 0 := by omega
    rw [Shape.rowMajor_val_three, Shape.rowMajor_val_one]
    show q.val = (u.val * 1 + w.val) * n + q.val
    rw [hu, hw]
    simp only [Nat.zero_mul, Nat.zero_add, Nat.mul_one, Nat.add_zero])

/-- A `[1, 1, n]` array broadcast to `[a, b, n]` reads, at `(p, u, q)`, the operand at `(0, 0, q)`. -/
theorem broadcastTo_11n_abn_apply {a b n : ℕ} (x : (⟨3, ![1, 1, n]⟩ : Shape).Idx → α)
    (h : (⟨3, ![1, 1, n]⟩ : Shape).Broadcasts ⟨3, ![a, b, n]⟩) (p : Fin a) (u : Fin b) (q : Fin n) :
    broadcastTo ⟨3, ![a, b, n]⟩ x h (ix3 p u q) = x (ix3 (0 : Fin 1) (0 : Fin 1) q) := by
  refine broadcastTo_apply x h (ix3 p u q) (ix3 (0 : Fin 1) (0 : Fin 1) q) fun ax => ?_
  match ax with
  | ⟨0, _⟩ => rfl
  | ⟨1, _⟩ => rfl
  | ⟨2, _⟩ =>
    show q.val = if n = 1 then 0 else q.val
    split
    · have := q.isLt; omega
    · rfl

/-! ## The unit axes of a rank-4 block dropped -/

/-- A `[1, a, 1, c]` block cast to `[a, c]` reads, at `(p, q)`, the operand at `(0, p, 0, q)`. -/
theorem shapeCast_1a1c_ac_apply {a c : ℕ} (x : (⟨4, ![1, a, 1, c]⟩ : Shape).Idx → α)
    (h : (⟨4, ![1, a, 1, c]⟩ : Shape).ShapeCasts ⟨2, ![a, c]⟩) (p : Fin a) (q : Fin c) :
    shapeCast ⟨2, ![a, c]⟩ x h (ix2 p q) = x (ix4 (0 : Fin 1) p (0 : Fin 1) q) :=
  shapeCast_apply x h _ _ (by
    rw [Shape.rowMajor_val_four, Shape.rowMajor_val_two]
    show ((0 * a + p.val) * 1 + 0) * c + q.val = p.val * c + q.val
    rw [Nat.zero_mul, Nat.zero_add, Nat.mul_one, Nat.add_zero])

/-- A `[1, 1, b, c]` block cast to `[b, c]` reads, at `(u, q)`, the operand at `(0, 0, u, q)`. -/
theorem shapeCast_11bc_bc_apply {b c : ℕ} (x : (⟨4, ![1, 1, b, c]⟩ : Shape).Idx → α)
    (h : (⟨4, ![1, 1, b, c]⟩ : Shape).ShapeCasts ⟨2, ![b, c]⟩) (u : Fin b) (q : Fin c) :
    shapeCast ⟨2, ![b, c]⟩ x h (ix2 u q) = x (ix4 (0 : Fin 1) (0 : Fin 1) u q) :=
  shapeCast_apply x h _ _ (by
    rw [Shape.rowMajor_val_four, Shape.rowMajor_val_two]
    show ((0 * 1 + 0) * b + u.val) * c + q.val = u.val * c + q.val
    simp only [Nat.zero_mul, Nat.zero_add, Nat.mul_one, Nat.add_zero])

end Cert.LibMidAxisLayout
-- ==== Proof.BigBody.lean ====
/-
  The big call's body, read at an entry `(b, d, q)` of its block of two batch rows.

  The three coefficient rows arrive as `1 × 1 × 512` blocks and are spread over the block's two rows and 512 inputs:
  the entry at `(b, d, q)` is the coefficient `q`. The input arrives as a `2 × 512 × 1` block and is spread along the
  units: the entry at `(b, d, q)` is the input's `(b, d)`. Everything else is pointwise on the four planes.
-/
import proofs.«146985_j4964982194384_2_alg».proof.Proof.Gen.KernelIdeal.Skeleton
import proofs.«146985_j4964982194384_2_alg».proof.Proof.LibRank3Layout
import proofs.«146985_j4964982194384_2_alg».proof.Proof.LibMidAxisLayout
import Idealize.ShloMosaic.Lib.Pipeline.Value
import Idealize.ShloMosaic.Lib.ValueIdx

noncomputable section

namespace Cert.KernelIdeal.BigBody

open Cert.KernelIdeal Cert.KernelIdeal.Gen
open Idealize.ShloMosaic Idealize.ShloMosaic.ValueIdx

/-- A coefficient block spread over the two rows and the inputs reads the coefficient of its unit. -/
theorem coef_apply {α : Type} (v : S1x1x512.Idx → α) (b : Fin 2) (d q : Fin 512) :
    broadcastTo S2x512x512 (shapeCast S1x1x512 v shapeCasts_S1x1x512_S1x1x512) broadcasts_S1x1x512_S2x512x512 (ix3 b d q)
      = v (ix3 (0 : Fin 1) (0 : Fin 1) q) := by
  rw [shapeCast_self]
  exact Cert.LibMidAxisLayout.broadcastTo_11n_abn_apply v _ b d q

/-- The same for a coefficient block that has already been cast. -/
theorem coef_apply' {α : Type} (v : S1x1x512.Idx → α) (b : Fin 2) (d q : Fin 512) :
    broadcastTo S2x512x512 v broadcasts_S1x1x512_S2x512x512 (ix3 b d q) = v (ix3 (0 : Fin 1) (0 : Fin 1) q) :=
  Cert.LibMidAxisLayout.broadcastTo_11n_abn_apply v _ b d q

/-- The input block spread along the units reads the input's entry of its row and input. -/
theorem input_apply {α : Type} (v : S2x512x1.Idx → α) (b : Fin 2) (d q : Fin 512) :
    broadcastTo S2x512x512 (shapeCast S2x512x1 v shapeCasts_S2x512x1_S2x512x1) broadcasts_S2x512x1_S2x512x512 (ix3 b d q)
      = v (ix3 b d (0 : Fin 1)) := by
  rw [shapeCast_self]
  exact Cert.LibRank3Layout.broadcastTo_ab1_abc_apply v _ b d q

variable (g phi norm : Vec Ideal S1x1x512 .f32) (xb : Vec Ideal S2x512x1 .f32)
variable (pa pb : Vec Ideal S2x512x512 .f32) (b : Fin 2) (d q : Fin 512)

/-- `g·A − φ·B + n·x` on the block. -/
theorem subIn_pay :
    k1_pay6 g phi norm xb pa pb (ix3 b d q)
      = (g (ix3 (0 : Fin 1) (0 : Fin 1) q) * pa (ix3 b d q) - phi (ix3 (0 : Fin 1) (0 : Fin 1) q) * pb (ix3 b d q))
        + norm (ix3 (0 : Fin 1) (0 : Fin 1) q) * xb (ix3 b d (0 : Fin 1)) := by
  simp only [k1_pay6, k1_pay5, k1_pay3, k1_pay4, mulf_apply, addf_apply, subf_apply, coef_apply, input_apply]

/-- `g·B + φ·A` on the block. -/
theorem add_pay :
    k1_pay7 g phi pa pb (ix3 b d q)
      = g (ix3 (0 : Fin 1) (0 : Fin 1) q) * pb (ix3 b d q) + phi (ix3 (0 : Fin 1) (0 : Fin 1) q) * pa (ix3 b d q) := by
  simp only [k1_pay7, k1_pay3, k1_pay4, mulf_apply, addf_apply, coef_apply]

/-- `g·A − φ·B` on the block. -/
theorem sub_pay :
    k1_pay1 (k1_pay3 g) (k1_pay4 phi) pa pb (ix3 b d q)
      = g (ix3 (0 : Fin 1) (0 : Fin 1) q) * pa (ix3 b d q) - phi (ix3 (0 : Fin 1) (0 : Fin 1) q) * pb (ix3 b d q) := by
  simp only [k1_pay1, k1_pay3, k1_pay4, mulf_apply, subf_apply, coef_apply]

/-- `g·B + φ·A + n·x` on the block. -/
theorem addIn_pay :
    k1_pay2 (k1_pay3 g) (k1_pay4 phi) (k1_pay5 norm xb) pa pb (ix3 b d q)
      = (g (ix3 (0 : Fin 1) (0 : Fin 1) q) * pb (ix3 b d q) + phi (ix3 (0 : Fin 1) (0 : Fin 1) q) * pa (ix3 b d q))
        + norm (ix3 (0 : Fin 1) (0 : Fin 1) q) * xb (ix3 b d (0 : Fin 1)) := by
  simp only [k1_pay2, k1_pay5, k1_pay3, k1_pay4, mulf_apply, addf_apply, coef_apply, input_apply]

end Cert.KernelIdeal.BigBody

end
-- ==== Proof.BigArrays.lean ====
/-
  The big call: from its 32 grid points to the four result arrays.

  Point `t` reads batch rows `2t, 2t + 1` of the four old planes and of the input column and writes the same rows of
  the four new planes, so every write-back is the restriction to those rows of one whole-array function, and the 32
  blocks cover the 64 rows. The call finds the planes as launched; the three coefficient rows and the input reach it
  through four reshapes (a `1 × 512` row as `1 × 1 × 512`, the `64 × 512` input as `64 × 512 × 1`), which keep the
  row-major position of every entry.
-/
import proofs.«146985_j4964982194384_2_alg».proof.Proof.Gen.KernelIdeal.Frame
import proofs.«146985_j4964982194384_2_alg».proof.Proof.Spec
import proofs.«146985_j4964982194384_2_alg».proof.Proof.BigBody

set_option maxRecDepth 16384

noncomputable section

namespace Cert.KernelIdeal.BigArrays

open Cert.KernelIdeal Cert.KernelIdeal.Gen Cert.TraceSpec
open Idealize.ShloMosaic Idealize.ShloMosaic.TcCoe Idealize.ShloMosaic.ValueIdx Idealize.SL.Sem Idealize.ShloMosaic.StableHlo

theorem hz3 : (![0, 0, 0] : Fin 3 → Nat) = fun _ => 0 := funext fun a => by fin_cases a <;> rfl

/-! ## The blocks of the big call

Grid point `t` of 32 holds batch rows `2t` and `2t + 1`: every plane window and the input window have the block index
`(t, 0, 0)`, so the block's entry `(b, d, q)` is the array's `(2t + b, d, q)`; the three coefficient windows have the
block index `(0, 0, 0)` and their one block is the whole `1 × 1 × 512` array. -/

/-- Batch row `b` of grid point `t`'s block. -/
def row (t : Fin cfg1.N) (b : Fin 2) : Fin 64 :=
  ⟨2 * t.val + b.val, by have ht : t.val < 32 := t.isLt; have hb := b.isLt; omega⟩

theorem lead1_0 : ∀ t : Fin cfg1.N, win1_0.index t (0 : Fin 3) = t.val := (by decide +kernel : ∀ t : Fin grid1.N, _)
theorem lead1_1 : ∀ t : Fin cfg1.N, win1_1.index t (0 : Fin 3) = t.val := (by decide +kernel : ∀ t : Fin grid1.N, _)
theorem lead1_2 : ∀ t : Fin cfg1.N, win1_2.index t (0 : Fin 3) = t.val := (by decide +kernel : ∀ t : Fin grid1.N, _)
theorem lead1_3 : ∀ t : Fin cfg1.N, win1_3.index t (0 : Fin 3) = t.val := (by decide +kernel : ∀ t : Fin grid1.N, _)
theorem lead1_4 : ∀ t : Fin cfg1.N, win1_4.index t (0 : Fin 3) = t.val := (by decide +kernel : ∀ t : Fin grid1.N, _)
theorem lead1_8 : ∀ t : Fin cfg1.N, win1_8.index t (0 : Fin 3) = t.val := (by decide +kernel : ∀ t : Fin grid1.N, _)
theorem lead1_9 : ∀ t : Fin cfg1.N, win1_9.index t (0 : Fin 3) = t.val := (by decide +kernel : ∀ t : Fin grid1.N, _)
theorem lead1_10 : ∀ t : Fin cfg1.N, win1_10.index t (0 : Fin 3) = t.val := (by decide +kernel : ∀ t : Fin grid1.N, _)
theorem lead1_11 : ∀ t : Fin cfg1.N, win1_11.index t (0 : Fin 3) = t.val := (by decide +kernel : ∀ t : Fin grid1.N, _)

section Blocks
variable {F : FTy → Type} [FloatOps F]
variable (V : (c : Dev nD) → (b : Ref sig .tc) → Buf (Elt F) ((c : Thread nD τ).loc b))

theorem plane_blk0 (c : Dev nD) (t : Fin cfg1.N) (b : Fin 2) (d q : Fin 512) :
    iblk1 V c 0 t (ix3 b d q) = V c main_arg7 (ix3 (row t b) d q) := by
  unfold iblk1
  rw [View.read_apply]
  show V c main_arg7 _ = V c main_arg7 _
  refine congrArg (V c main_arg7) (funext fun a => Fin.ext ?_)
  match a with
  | ⟨0, _⟩ => show win1_0.index t (0 : Fin 3) * 2 + 1 * b.val = 2 * t.val + b.val; rw [lead1_0 t]; omega
  | ⟨1, _⟩ => show win1_0.index t (1 : Fin 3) * 512 + 1 * d.val = d.val; rw [show win1_0.index t (1 : Fin 3) = 0 from rfl]; omega
  | ⟨2, _⟩ => show win1_0.index t (2 : Fin 3) * 512 + 1 * q.val = q.val; rw [show win1_0.index t (2 : Fin 3) = 0 from rfl]; omega

theorem plane_blk1 (c : Dev nD) (t : Fin cfg1.N) (b : Fin 2) (d q : Fin 512) :
    iblk1 V c 1 t (ix3 b d q) = V c main_arg8 (ix3 (row t b) d q) := by
  unfold iblk1
  rw [View.read_apply]
  show V c main_arg8 _ = V c main_arg8 _
  refine congrArg (V c main_arg8) (funext fun a => Fin.ext ?_)
  match a with
  | ⟨0, _⟩ => show win1_1.index t (0 : Fin 3) * 2 + 1 * b.val = 2 * t.val + b.val; rw [lead1_1 t]; omega
  | ⟨1, _⟩ => show win1_1.index t (1 : Fin 3) * 512 + 1 * d.val = d.val; rw [show win1_1.index t (1 : Fin 3) = 0 from rfl]; omega
  | ⟨2, _⟩ => show win1_1.index t (2 : Fin 3) * 512 + 1 * q.val = q.val; rw [show win1_1.index t (2 : Fin 3) = 0 from rfl]; omega

theorem plane_blk2 (c : Dev nD) (t : Fin cfg1.N) (b : Fin 2) (d q : Fin 512) :
    iblk1 V c 2 t (ix3 b d q) = V c main_arg9 (ix3 (row t b) d q) := by
  unfold iblk1
  rw [View.read_apply]
  show V c main_arg9 _ = V c main_arg9 _
  refine congrArg (V c main_arg9) (funext fun a => Fin.ext ?_)
  match a with
  | ⟨0, _⟩ => show win1_2.index t (0 : Fin 3) * 2 + 1 * b.val = 2 * t.val + b.val; rw [lead1_2 t]; omega
  | ⟨1, _⟩ => show win1_2.index t (1 : Fin 3) * 512 + 1 * d.val = d.val; rw [show win1_2.index t (1 : Fin 3) = 0 from rfl]; omega
  | ⟨2, _⟩ => show win1_2.index t (2 : Fin 3) * 512 + 1 * q.val = q.val; rw [show win1_2.index t (2 : Fin 3) = 0 from rfl]; omega

theorem plane_blk3 (c : Dev nD) (t : Fin cfg1.N) (b : Fin 2) (d q : Fin 512) :
    iblk1 V c 3 t (ix3 b d q) = V c main_arg10 (ix3 (row t b) d q) := by
  unfold iblk1
  rw [View.read_apply]
  show V c main_arg10 _ = V c main_arg10 _
  refine congrArg (V c main_arg10) (funext fun a => Fin.ext ?_)
  match a with
  | ⟨0, _⟩ => show win1_3.index t (0 : Fin 3) * 2 + 1 * b.val = 2 * t.val + b.val; rw [lead1_3 t]; omega
  | ⟨1, _⟩ => show win1_3.index t (1 : Fin 3) * 512 + 1 * d.val = d.val; rw [show win1_3.index t (1 : Fin 3) = 0 from rfl]; omega
  | ⟨2, _⟩ => show win1_3.index t (2 : Fin 3) * 512 + 1 * q.val = q.val; rw [show win1_3.index t (2 : Fin 3) = 0 from rfl]; omega

theorem input_blk (c : Dev nD) (t : Fin cfg1.N) (b : Fin 2) (d : Fin 512) (u : Fin 1) :
    iblk1 V c 4 t (ix3 b d u) = V c main_v24 (ix3 (row t b) d u) := by
  unfold iblk1
  rw [View.read_apply]
  show V c main_v24 _ = V c main_v24 _
  refine congrArg (V c main_v24) (funext fun a => Fin.ext ?_)
  match a with
  | ⟨0, _⟩ => show win1_4.index t (0 : Fin 3) * 2 + 1 * b.val = 2 * t.val + b.val; rw [lead1_4 t]; omega
  | ⟨1, _⟩ => show win1_4.index t (1 : Fin 3) * 512 + 1 * d.val = d.val; rw [show win1_4.index t (1 : Fin 3) = 0 from rfl]; omega
  | ⟨2, _⟩ => show win1_4.index t (2 : Fin 3) * 1 + 1 * u.val = u.val; rw [show win1_4.index t (2 : Fin 3) = 0 from rfl]; omega

theorem coef_blk5 (c : Dev nD) (t : Fin cfg1.N) : iblk1 V c 5 t = V c main_v25 := by
  funext y
  unfold iblk1
  rw [View.read_apply]
  show V c main_v25 _ = V c main_v25 y
  refine congrArg (V c main_v25) (funext fun a => Fin.ext ?_)
  match a with
  | ⟨0, _⟩ => show win1_5.index t (0 : Fin 3) * 1 + 1 * (y 0).val = (y 0).val; rw [show win1_5.index t (0 : Fin 3) = 0 from rfl]; omega
  | ⟨1, _⟩ => show win1_5.index t (1 : Fin 3) * 1 + 1 * (y 1).val = (y 1).val; rw [show win1_5.index t (1 : Fin 3) = 0 from rfl]; omega
  | ⟨2, _⟩ => show win1_5.index t (2 : Fin 3) * 512 + 1 * (y 2).val = (y 2).val; rw [show win1_5.index t (2 : Fin 3) = 0 from rfl]; omega

theorem coef_blk6 (c : Dev nD) (t : Fin cfg1.N) : iblk1 V c 6 t = V c main_v26 := by
  funext y
  unfold iblk1
  rw [View.read_apply]
  show V c main_v26 _ = V c main_v26 y
  refine congrArg (V c main_v26) (funext fun a => Fin.ext ?_)
  match a with
  | ⟨0, _⟩ => show win1_6.index t (0 : Fin 3) * 1 + 1 * (y 0).val = (y 0).val; rw [show win1_6.index t (0 : Fin 3) = 0 from rfl]; omega
  | ⟨1, _⟩ => show win1_6.index t (1 : Fin 3) * 1 + 1 * (y 1).val = (y 1).val; rw [show win1_6.index t (1 : Fin 3) = 0 from rfl]; omega
  | ⟨2, _⟩ => show win1_6.index t (2 : Fin 3) * 512 + 1 * (y 2).val = (y 2).val; rw [show win1_6.index t (2 : Fin 3) = 0 from rfl]; omega

theorem coef_blk7 (c : Dev nD) (t : Fin cfg1.N) : iblk1 V c 7 t = V c main_v27 := by
  funext y
  unfold iblk1
  rw [View.read_apply]
  show V c main_v27 _ = V c main_v27 y
  refine congrArg (V c main_v27) (funext fun a => Fin.ext ?_)
  match a with
  | ⟨0, _⟩ => show win1_7.index t (0 : Fin 3) * 1 + 1 * (y 0).val = (y 0).val; rw [show win1_7.index t (0 : Fin 3) = 0 from rfl]; omega
  | ⟨1, _⟩ => show win1_7.index t (1 : Fin 3) * 1 + 1 * (y 1).val = (y 1).val; rw [show win1_7.index t (1 : Fin 3) = 0 from rfl]; omega
  | ⟨2, _⟩ => show win1_7.index t (2 : Fin 3) * 512 + 1 * (y 2).val = (y 2).val; rw [show win1_7.index t (2 : Fin 3) = 0 from rfl]; omega

theorem out1_8_at (t : Fin cfg1.N) (b : Fin 2) (d q : Fin 512) :
    ((cfg1.win 8).blk t).view.emb (ix3 b d q) = ix3 (row t b) d q := by
  funext a
  apply Fin.ext
  match a with
  | ⟨0, _⟩ => show win1_8.index t (0 : Fin 3) * 2 + 1 * b.val = 2 * t.val + b.val; rw [lead1_8 t]; omega
  | ⟨1, _⟩ => show win1_8.index t (1 : Fin 3) * 512 + 1 * d.val = d.val; rw [show win1_8.index t (1 : Fin 3) = 0 from rfl]; omega
  | ⟨2, _⟩ => show win1_8.index t (2 : Fin 3) * 512 + 1 * q.val = q.val; rw [show win1_8.index t (2 : Fin 3) = 0 from rfl]; omega

theorem out1_9_at (t : Fin cfg1.N) (b : Fin 2) (d q : Fin 512) :
    ((cfg1.win 9).blk t).view.emb (ix3 b d q) = ix3 (row t b) d q := by
  funext a
  apply Fin.ext
  match a with
  | ⟨0, _⟩ => show win1_9.index t (0 : Fin 3) * 2 + 1 * b.val = 2 * t.val + b.val; rw [lead1_9 t]; omega
  | ⟨1, _⟩ => show win1_9.index t (1 : Fin 3) * 512 + 1 * d.val = d.val; rw [show win1_9.index t (1 : Fin 3) = 0 from rfl]; omega
  | ⟨2, _⟩ => show win1_9.index t (2 : Fin 3) * 512 + 1 * q.val = q.val; rw [show win1_9.index t (2 : Fin 3) = 0 from rfl]; omega

theorem out1_10_at (t : Fin cfg1.N) (b : Fin 2) (d q : Fin 512) :
    ((cfg1.win 10).blk t).view.emb (ix3 b d q) = ix3 (row t b) d q := by
  funext a
  apply Fin.ext
  match a with
  | ⟨0, _⟩ => show win1_10.index t (0 : Fin 3) * 2 + 1 * b.val = 2 * t.val + b.val; rw [lead1_10 t]; omega
  | ⟨1, _⟩ => show win1_10.index t (1 : Fin 3) * 512 + 1 * d.val = d.val; rw [show win1_10.index t (1 : Fin 3) = 0 from rfl]; omega
  | ⟨2, _⟩ => show win1_10.index t (2 : Fin 3) * 512 + 1 * q.val = q.val; rw [show win1_10.index t (2 : Fin 3) = 0 from rfl]; omega

theorem out1_11_at (t : Fin cfg1.N) (b : Fin 2) (d q : Fin 512) :
    ((cfg1.win 11).blk t).view.emb (ix3 b d q) = ix3 (row t b) d q := by
  funext a
  apply Fin.ext
  match a with
  | ⟨0, _⟩ => show win1_11.index t (0 : Fin 3) * 2 + 1 * b.val = 2 * t.val + b.val; rw [lead1_11 t]; omega
  | ⟨1, _⟩ => show win1_11.index t (1 : Fin 3) * 512 + 1 * d.val = d.val; rw [show win1_11.index t (1 : Fin 3) = 0 from rfl]; omega
  | ⟨2, _⟩ => show win1_11.index t (2 : Fin 3) * 512 + 1 * q.val = q.val; rw [show win1_11.index t (2 : Fin 3) = 0 from rfl]; omega

end Blocks

/-! ## What a point writes back, and the arrays after the call -/

section Flushed
variable (V : (c : Dev nD) → (b : Ref sig .tc) → Buf (Elt Ideal) ((c : Thread nD τ).loc b))

/-- `g·A − φ·B + n·x` on whole arrays, the coefficients and the input in the layouts the call is given. -/
def cubeSubIn (cg cp cn : Vec Ideal S1x1x512 .f32) (x3 : Vec Ideal S64x512x1 .f32) (A B : Vec Ideal S64x512x512 .f32) :
    Vec Ideal S64x512x512 .f32 :=
  onCube fun b d q => (cg (ix3 (0 : Fin 1) (0 : Fin 1) q) * A (ix3 b d q) - cp (ix3 (0 : Fin 1) (0 : Fin 1) q) * B (ix3 b d q))
    + cn (ix3 (0 : Fin 1) (0 : Fin 1) q) * x3 (ix3 b d (0 : Fin 1))
/-- `g·A + φ·B + n·x`. -/
def cubeAddIn (cg cp cn : Vec Ideal S1x1x512 .f32) (x3 : Vec Ideal S64x512x1 .f32) (A B : Vec Ideal S64x512x512 .f32) :
    Vec Ideal S64x512x512 .f32 :=
  onCube fun b d q => (cg (ix3 (0 : Fin 1) (0 : Fin 1) q) * A (ix3 b d q) + cp (ix3 (0 : Fin 1) (0 : Fin 1) q) * B (ix3 b d q))
    + cn (ix3 (0 : Fin 1) (0 : Fin 1) q) * x3 (ix3 b d (0 : Fin 1))
/-- `g·A − φ·B`. -/
def cubeSub (cg cp : Vec Ideal S1x1x512 .f32) (A B : Vec Ideal S64x512x512 .f32) : Vec Ideal S64x512x512 .f32 :=
  onCube fun b d q => cg (ix3 (0 : Fin 1) (0 : Fin 1) q) * A (ix3 b d q) - cp (ix3 (0 : Fin 1) (0 : Fin 1) q) * B (ix3 b d q)
/-- `g·A + φ·B`. -/
def cubeAdd (cg cp : Vec Ideal S1x1x512 .f32) (A B : Vec Ideal S64x512x512 .f32) : Vec Ideal S64x512x512 .f32 :=
  onCube fun b d q => cg (ix3 (0 : Fin 1) (0 : Fin 1) q) * A (ix3 b d q) + cp (ix3 (0 : Fin 1) (0 : Fin 1) q) * B (ix3 b d q)

/-- The grid point whose block holds batch row `i 0`: the row halved. -/
def ptOf (i : S64x512x512.Idx) : Fin cfg1.N :=
  ⟨(i 0 : Nat) / 2, by have h0 : (i 0 : Nat) < 64 := (i 0).isLt; show (i 0 : Nat) / 2 < 32; omega⟩

theorem core8 (c : Dev nD) (t : Fin cfg1.N) (j : S2x512x512.Idx) :
    k1_pay6 (iblk1 V c 5 t) (iblk1 V c 6 t) (iblk1 V c 7 t) (iblk1 V c 4 t) (iblk1 V c 0 t) (iblk1 V c 1 t) j
      = cubeSubIn (V c main_v25) (V c main_v26) (V c main_v27) (V c main_v24) (V c main_arg7) (V c main_arg8)
          (((cfg1.win 8).blk t).view.emb j) := by
  obtain ⟨b, d, q, rfl⟩ : ∃ (b : Fin 2) (d q : Fin 512), j = ix3 b d q := ⟨j 0, j 1, j 2, eq_ix3 j⟩
  refine (BigBody.subIn_pay (iblk1 V c 5 t) (iblk1 V c 6 t) (iblk1 V c 7 t) (iblk1 V c 4 t) (iblk1 V c 0 t) (iblk1 V c 1 t) b d q).trans ?_
  rw [coef_blk5, coef_blk6, coef_blk7, plane_blk0, plane_blk1, input_blk, out1_8_at]
  rfl

theorem flushed8 (c : Dev nD) (t : Fin cfg1.N) :
    (dat1 V c).flushed 8 t = ((cfg1.win 8).blk t).view.read (Elt Ideal)
      (cubeSubIn (V c main_v25) (V c main_v26) (V c main_v27) (V c main_v24) (V c main_arg7) (V c main_arg8)) := by
  show (cfg1.win 8).cut (grid1.coords t) ((dat1 V c).after 8 t) = _
  rw [after1_8]
  unfold out1_8
  rw [View.canon_unit_zero hz3]
  simp only [View.ld_unit_zero (S := S2x512x512) hz3, View.ld_unit_zero (S := S2x512x1) hz3, View.ld_unit_zero (S := S1x1x512) hz3]
  funext j
  rw [View.read_apply]
  exact core8 V c t j

theorem covered8 (i : S64x512x512.Idx) :
    ∃ t : Fin cfg1.N, (cfg1.win 8).flush t = true ∧ i ∈ ((cfg1.win 8).blk t).view.set := by
  have h0 : (i 0 : Nat) < 64 := (i 0).isLt
  have h1 : (i 1 : Nat) < 512 := (i 1).isLt
  have h2 : (i 2 : Nat) < 512 := (i 2).isLt
  refine ⟨ptOf i, flush1_8 _, ?_⟩
  show i ∈ ((View.whole main_v28_0).slice (win1_8.rect (ptOf i))).set
  rw [View.set_slice_whole, Rect.mem_set_unit]
  intro a
  match a with
  | ⟨0, _⟩ =>
    show win1_8.index (ptOf i) (0 : Fin 3) * 2 ≤ (i 0 : Nat) ∧ (i 0 : Nat) < win1_8.index (ptOf i) (0 : Fin 3) * 2 + 2
    rw [lead1_8]
    show (i 0 : Nat) / 2 * 2 ≤ (i 0 : Nat) ∧ (i 0 : Nat) < (i 0 : Nat) / 2 * 2 + 2
    omega
  | ⟨1, _⟩ => exact ⟨Nat.zero_le _, h1⟩
  | ⟨2, _⟩ => exact ⟨Nat.zero_le _, h2⟩

theorem final8 (c : Dev nD) : (dat1 V c).arrAt 8 cfg1.N
    = cubeSubIn (V c main_v25) (V c main_v26) (V c main_v27) (V c main_v24) (V c main_arg7) (V c main_arg8) :=
  (dat1 V c).arrAt_eq_of_cover 8 _ (fun t _ => flushed8 V c t) covered8

theorem core9 (c : Dev nD) (t : Fin cfg1.N) (j : S2x512x512.Idx) :
    k1_pay7 (iblk1 V c 5 t) (iblk1 V c 6 t) (iblk1 V c 0 t) (iblk1 V c 1 t) j
      = cubeAdd (V c main_v25) (V c main_v26) (V c main_arg8) (V c main_arg7)
          (((cfg1.win 9).blk t).view.emb j) := by
  obtain ⟨b, d, q, rfl⟩ : ∃ (b : Fin 2) (d q : Fin 512), j = ix3 b d q := ⟨j 0, j 1, j 2, eq_ix3 j⟩
  refine (BigBody.add_pay (iblk1 V c 5 t) (iblk1 V c 6 t) (iblk1 V c 0 t) (iblk1 V c 1 t) b d q).trans ?_
  rw [coef_blk5, coef_blk6, plane_blk0, plane_blk1, out1_9_at]
  rfl

theorem flushed9 (c : Dev nD) (t : Fin cfg1.N) :
    (dat1 V c).flushed 9 t = ((cfg1.win 9).blk t).view.read (Elt Ideal)
      (cubeAdd (V c main_v25) (V c main_v26) (V c main_arg8) (V c main_arg7)) := by
  show (cfg1.win 9).cut (grid1.coords t) ((dat1 V c).after 9 t) = _
  rw [after1_9]
  unfold out1_9
  rw [View.canon_unit_zero hz3]
  simp only [View.ld_unit_zero (S := S2x512x512) hz3, View.ld_unit_zero (S := S2x512x1) hz3, View.ld_unit_zero (S := S1x1x512) hz3]
  funext j
  rw [View.read_apply]
  exact core9 V c t j

theorem covered9 (i : S64x512x512.Idx) :
    ∃ t : Fin cfg1.N, (cfg1.win 9).flush t = true ∧ i ∈ ((cfg1.win 9).blk t).view.set := by
  have h0 : (i 0 : Nat) < 64 := (i 0).isLt
  have h1 : (i 1 : Nat) < 512 := (i 1).isLt
  have h2 : (i 2 : Nat) < 512 := (i 2).isLt
  refine ⟨ptOf i, flush1_9 _, ?_⟩
  show i ∈ ((View.whole main_v28_1).slice (win1_9.rect (ptOf i))).set
  rw [View.set_slice_whole, Rect.mem_set_unit]
  intro a
  match a with
  | ⟨0, _⟩ =>
    show win1_9.index (ptOf i) (0 : Fin 3) * 2 ≤ (i 0 : Nat) ∧ (i 0 : Nat) < win1_9.index (ptOf i) (0 : Fin 3) * 2 + 2
    rw [lead1_9]
    show (i 0 : Nat) / 2 * 2 ≤ (i 0 : Nat) ∧ (i 0 : Nat) < (i 0 : Nat) / 2 * 2 + 2
    omega
  | ⟨1, _⟩ => exact ⟨Nat.zero_le _, h1⟩
  | ⟨2, _⟩ => exact ⟨Nat.zero_le _, h2⟩

theorem final9 (c : Dev nD) : (dat1 V c).arrAt 9 cfg1.N
    = cubeAdd (V c main_v25) (V c main_v26) (V c main_arg8) (V c main_arg7) :=
  (dat1 V c).arrAt_eq_of_cover 9 _ (fun t _ => flushed9 V c t) covered9

theorem core10 (c : Dev nD) (t : Fin cfg1.N) (j : S2x512x512.Idx) :
    k1_pay1 (k1_pay3 (iblk1 V c 5 t)) (k1_pay4 (iblk1 V c 6 t)) (iblk1 V c 2 t) (iblk1 V c 3 t) j
      = cubeSub (V c main_v25) (V c main_v26) (V c main_arg9) (V c main_arg10)
          (((cfg1.win 10).blk t).view.emb j) := by
  obtain ⟨b, d, q, rfl⟩ : ∃ (b : Fin 2) (d q : Fin 512), j = ix3 b d q := ⟨j 0, j 1, j 2, eq_ix3 j⟩
  refine (BigBody.sub_pay (iblk1 V c 5 t) (iblk1 V c 6 t) (iblk1 V c 2 t) (iblk1 V c 3 t) b d q).trans ?_
  rw [coef_blk5, coef_blk6, plane_blk2, plane_blk3, out1_10_at]
  rfl

theorem flushed10 (c : Dev nD) (t : Fin cfg1.N) :
    (dat1 V c).flushed 10 t = ((cfg1.win 10).blk t).view.read (Elt Ideal)
      (cubeSub (V c main_v25) (V c main_v26) (V c main_arg9) (V c main_arg10)) := by
  show (cfg1.win 10).cut (grid1.coords t) ((dat1 V c).after 10 t) = _
  rw [after1_10]
  unfold out1_10
  rw [View.canon_unit_zero hz3]
  simp only [View.ld_unit_zero (S := S2x512x512) hz3, View.ld_unit_zero (S := S2x512x1) hz3, View.ld_unit_zero (S := S1x1x512) hz3]
  funext j
  rw [View.read_apply]
  exact core10 V c t j

theorem covered10 (i : S64x512x512.Idx) :
    ∃ t : Fin cfg1.N, (cfg1.win 10).flush t = true ∧ i ∈ ((cfg1.win 10).blk t).view.set := by
  have h0 : (i 0 : Nat) < 64 := (i 0).isLt
  have h1 : (i 1 : Nat) < 512 := (i 1).isLt
  have h2 : (i 2 : Nat) < 512 := (i 2).isLt
  refine ⟨ptOf i, flush1_10 _, ?_⟩
  show i ∈ ((View.whole main_v28_2).slice (win1_10.rect (ptOf i))).set
  rw [View.set_slice_whole, Rect.mem_set_unit]
  intro a
  match a with
  | ⟨0, _⟩ =>
    show win1_10.index (ptOf i) (0 : Fin 3) * 2 ≤ (i 0 : Nat) ∧ (i 0 : Nat) < win1_10.index (ptOf i) (0 : Fin 3) * 2 + 2
    rw [lead1_10]
    show (i 0 : Nat) / 2 * 2 ≤ (i 0 : Nat) ∧ (i 0 : Nat) < (i 0 : Nat) / 2 * 2 + 2
    omega
  | ⟨1, _⟩ => exact ⟨Nat.zero_le _, h1⟩
  | ⟨2, _⟩ => exact ⟨Nat.zero_le _, h2⟩

theorem final10 (c : Dev nD) : (dat1 V c).arrAt 10 cfg1.N
    = cubeSub (V c main_v25) (V c main_v26) (V c main_arg9) (V c main_arg10) :=
  (dat1 V c).arrAt_eq_of_cover 10 _ (fun t _ => flushed10 V c t) covered10

theorem core11 (c : Dev nD) (t : Fin cfg1.N) (j : S2x512x512.Idx) :
    k1_pay2 (k1_pay3 (iblk1 V c 5 t)) (k1_pay4 (iblk1 V c 6 t)) (k1_pay5 (iblk1 V c 7 t) (iblk1 V c 4 t)) (iblk1 V c 2 t) (iblk1 V c 3 t) j
      = cubeAddIn (V c main_v25) (V c main_v26) (V c main_v27) (V c main_v24) (V c main_arg10) (V c main_arg9)
          (((cfg1.win 11).blk t).view.emb j) := by
  obtain ⟨b, d, q, rfl⟩ : ∃ (b : Fin 2) (d q : Fin 512), j = ix3 b d q := ⟨j 0, j 1, j 2, eq_ix3 j⟩
  refine (BigBody.addIn_pay (iblk1 V c 5 t) (iblk1 V c 6 t) (iblk1 V c 7 t) (iblk1 V c 4 t) (iblk1 V c 2 t) (iblk1 V c 3 t) b d q).trans ?_
  rw [coef_blk5, coef_blk6, coef_blk7, plane_blk2, plane_blk3, input_blk, out1_11_at]
  rfl

theorem flushed11 (c : Dev nD) (t : Fin cfg1.N) :
    (dat1 V c).flushed 11 t = ((cfg1.win 11).blk t).view.read (Elt Ideal)
      (cubeAddIn (V c main_v25) (V c main_v26) (V c main_v27) (V c main_v24) (V c main_arg10) (V c main_arg9)) := by
  show (cfg1.win 11).cut (grid1.coords t) ((dat1 V c).after 11 t) = _
  rw [after1_11]
  unfold out1_11
  rw [View.canon_unit_zero hz3]
  simp only [View.ld_unit_zero (S := S2x512x512) hz3, View.ld_unit_zero (S := S2x512x1) hz3, View.ld_unit_zero (S := S1x1x512) hz3]
  funext j
  rw [View.read_apply]
  exact core11 V c t j

theorem covered11 (i : S64x512x512.Idx) :
    ∃ t : Fin cfg1.N, (cfg1.win 11).flush t = true ∧ i ∈ ((cfg1.win 11).blk t).view.set := by
  have h0 : (i 0 : Nat) < 64 := (i 0).isLt
  have h1 : (i 1 : Nat) < 512 := (i 1).isLt
  have h2 : (i 2 : Nat) < 512 := (i 2).isLt
  refine ⟨ptOf i, flush1_11 _, ?_⟩
  show i ∈ ((View.whole main_v28_3).slice (win1_11.rect (ptOf i))).set
  rw [View.set_slice_whole, Rect.mem_set_unit]
  intro a
  match a with
  | ⟨0, _⟩ =>
    show win1_11.index (ptOf i) (0 : Fin 3) * 2 ≤ (i 0 : Nat) ∧ (i 0 : Nat) < win1_11.index (ptOf i) (0 : Fin 3) * 2 + 2
    rw [lead1_11]
    show (i 0 : Nat) / 2 * 2 ≤ (i 0 : Nat) ∧ (i 0 : Nat) < (i 0 : Nat) / 2 * 2 + 2
    omega
  | ⟨1, _⟩ => exact ⟨Nat.zero_le _, h1⟩
  | ⟨2, _⟩ => exact ⟨Nat.zero_le _, h2⟩

theorem final11 (c : Dev nD) : (dat1 V c).arrAt 11 cfg1.N
    = cubeAddIn (V c main_v25) (V c main_v26) (V c main_v27) (V c main_v24) (V c main_arg10) (V c main_arg9) :=
  (dat1 V c).arrAt_eq_of_cover 11 _ (fun t _ => flushed11 V c t) covered11

end Flushed

/-! ## Through the reshapes: the layouts the call is given against the specification's -/

section Reshaped
variable (g phi norm : Vec Ideal S1x512 .f32) (x : Vec Ideal S64x512 .f32) (A B : Vec Ideal S64x512x512 .f32)

/-- A coefficient row as a `1 × 1 × 512` block keeps coefficient `q` at `(0, 0, q)`. -/
theorem coef_cast (v : Vec Ideal S1x512 .f32) (q : Fin 512) :
    shapeCast S1x1x512 v shapeCasts_S1x512_S1x1x512 (ix3 (0 : Fin 1) (0 : Fin 1) q) = at1 v q :=
  Cert.LibMidAxisLayout.shapeCast_mc_abc_apply v _ (0 : Fin 1) (0 : Fin 1) q (0 : Fin 1) rfl

/-- The input with a trailing unit axis keeps `x (b, d)` at `(b, d, 0)`. -/
theorem input_cast (b : Fin 64) (d : Fin 512) :
    shapeCast S64x512x1 x shapeCasts_S64x512_S64x512x1 (ix3 b d (0 : Fin 1)) = x (ix2 b d) :=
  Cert.LibRank3Layout.shapeCast_ab_ab1_apply x _ b d (0 : Fin 1)

theorem cubeSubIn_reshaped :
    cubeSubIn (shapeCast S1x1x512 g shapeCasts_S1x512_S1x1x512) (shapeCast S1x1x512 phi shapeCasts_S1x512_S1x1x512)
      (shapeCast S1x1x512 norm shapeCasts_S1x512_S1x1x512) (shapeCast S64x512x1 x shapeCasts_S64x512_S64x512x1) A B
      = onCube (planeSubIn g phi norm x A B) := by
  funext i
  obtain ⟨b, d, q, rfl⟩ : ∃ (b : Fin 64) (d q : Fin 512), i = ix3 b d q := ⟨i 0, i 1, i 2, eq_ix3 i⟩
  show (shapeCast S1x1x512 g shapeCasts_S1x512_S1x1x512 (ix3 (0 : Fin 1) (0 : Fin 1) q) * A (ix3 b d q)
      - shapeCast S1x1x512 phi shapeCasts_S1x512_S1x1x512 (ix3 (0 : Fin 1) (0 : Fin 1) q) * B (ix3 b d q))
      + shapeCast S1x1x512 norm shapeCasts_S1x512_S1x1x512 (ix3 (0 : Fin 1) (0 : Fin 1) q)
        * shapeCast S64x512x1 x shapeCasts_S64x512_S64x512x1 (ix3 b d (0 : Fin 1)) = _
  rw [coef_cast, coef_cast, coef_cast, input_cast]
  rfl

theorem cubeAddIn_reshaped :
    cubeAddIn (shapeCast S1x1x512 g shapeCasts_S1x512_S1x1x512) (shapeCast S1x1x512 phi shapeCasts_S1x512_S1x1x512)
      (shapeCast S1x1x512 norm shapeCasts_S1x512_S1x1x512) (shapeCast S64x512x1 x shapeCasts_S64x512_S64x512x1) A B
      = onCube (planeAddIn g phi norm x A B) := by
  funext i
  obtain ⟨b, d, q, rfl⟩ : ∃ (b : Fin 64) (d q : Fin 512), i = ix3 b d q := ⟨i 0, i 1, i 2, eq_ix3 i⟩
  show (shapeCast S1x1x512 g shapeCasts_S1x512_S1x1x512 (ix3 (0 : Fin 1) (0 : Fin 1) q) * A (ix3 b d q)
      + shapeCast S1x1x512 phi shapeCasts_S1x512_S1x1x512 (ix3 (0 : Fin 1) (0 : Fin 1) q) * B (ix3 b d q))
      + shapeCast S1x1x512 norm shapeCasts_S1x512_S1x1x512 (ix3 (0 : Fin 1) (0 : Fin 1) q)
        * shapeCast S64x512x1 x shapeCasts_S64x512_S64x512x1 (ix3 b d (0 : Fin 1)) = _
  rw [coef_cast, coef_cast, coef_cast, input_cast]
  rfl

theorem cubeSub_reshaped :
    cubeSub (shapeCast S1x1x512 g shapeCasts_S1x512_S1x1x512) (shapeCast S1x1x512 phi shapeCasts_S1x512_S1x1x512) A B
      = onCube (planeSub g phi A B) := by
  funext i
  obtain ⟨b, d, q, rfl⟩ : ∃ (b : Fin 64) (d q : Fin 512), i = ix3 b d q := ⟨i 0, i 1, i 2, eq_ix3 i⟩
  show shapeCast S1x1x512 g shapeCasts_S1x512_S1x1x512 (ix3 (0 : Fin 1) (0 : Fin 1) q) * A (ix3 b d q)
      - shapeCast S1x1x512 phi shapeCasts_S1x512_S1x1x512 (ix3 (0 : Fin 1) (0 : Fin 1) q) * B (ix3 b d q) = _
  rw [coef_cast, coef_cast]
  rfl

theorem cubeAdd_reshaped :
    cubeAdd (shapeCast S1x1x512 g shapeCasts_S1x512_S1x1x512) (shapeCast S1x1x512 phi shapeCasts_S1x512_S1x1x512) A B
      = onCube (planeAdd g phi A B) := by
  funext i
  obtain ⟨b, d, q, rfl⟩ : ∃ (b : Fin 64) (d q : Fin 512), i = ix3 b d q := ⟨i 0, i 1, i 2, eq_ix3 i⟩
  show shapeCast S1x1x512 g shapeCasts_S1x512_S1x1x512 (ix3 (0 : Fin 1) (0 : Fin 1) q) * A (ix3 b d q)
      + shapeCast S1x1x512 phi shapeCasts_S1x512_S1x1x512 (ix3 (0 : Fin 1) (0 : Fin 1) q) * B (ix3 b d q) = _
  rw [coef_cast, coef_cast]
  rfl

end Reshaped

end Cert.KernelIdeal.BigArrays

end
-- ==== Proof.BigResults.lean ====
/-
  The big call's four results as functions of the arguments.

  Between the two calls nothing changes the arrays the big call reads except the four reshapes that prepare them: the
  small call leaves its input arrays as it found them (the input and the three coefficient rows among them), and
  the four old planes are no array of the small call at all. So the big call finds the planes as launched, the
  coefficient rows as computed from the two parameter rows, each recast as a `1 × 1 × 512` block, and the input recast
  with a trailing unit axis.
-/
import proofs.«146985_j4964982194384_2_alg».proof.Proof.SmallArrays
import proofs.«146985_j4964982194384_2_alg».proof.Proof.BigArrays

set_option maxRecDepth 16384

noncomputable section

namespace Cert.KernelIdeal.BigResults

open Cert.KernelIdeal Cert.KernelIdeal.Gen Cert.TraceSpec Cert.KernelIdeal.SmallArrays Cert.KernelIdeal.BigArrays
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## After the small call: its input arrays as it found them, the planes untouched -/

theorem thru_x (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (kept_arg0 m ρ c)
theorem thru_g (c : Dev nD) : W2 m ρ c (Proc.devRef .tc main_v5) = Cert.ReferenceIdeal.Read.val_main_v5 (F := Ideal) (m ((c : Thread nD τ).loc main_arg11)) (m ((c : Thread nD τ).loc main_arg12)) :=
  ((W2_arr m ρ c 9).trans (((dat0 (V1 m ρ) c).arrAt_in 9 rfl _).trans (A_eq0 (V1 m ρ) c 9))).trans (coef_v5 m ρ c)
theorem thru_phi (c : Dev nD) : W2 m ρ c (Proc.devRef .tc main_v7) = Cert.ReferenceIdeal.Read.val_main_v7 (F := Ideal) (m ((c : Thread nD τ).loc main_arg11)) (m ((c : Thread nD τ).loc main_arg12)) :=
  ((W2_arr m ρ c 10).trans (((dat0 (V1 m ρ) c).arrAt_in 10 rfl _).trans (A_eq0 (V1 m ρ) c 10))).trans (coef_v7 m ρ c)
theorem thru_norm (c : Dev nD) : W2 m ρ c (Proc.devRef .tc main_v11) = Cert.ReferenceIdeal.Read.val_main_v11 (F := Ideal) (m ((c : Thread nD τ).loc main_arg11)) :=
  ((W2_arr m ρ c 11).trans (((dat0 (V1 m ρ) c).arrAt_in 11 rfl _).trans (A_eq0 (V1 m ρ) c 11))).trans (coef_v11 m ρ c)

theorem thru_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)
theorem thru_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results)
theorem thru_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results)
theorem thru_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results)

/-! ## After the reshapes: what the big call finds -/

theorem entry_x (c : Dev nD) : V3 m ρ c main_v24 = shapeCast S64x512x1 (m ((c : Thread nD τ).loc main_arg0)) shapeCasts_S64x512_S64x512x1 := by
  rw [← thru_x m ρ c]
  show StableHlo.after hostOps1 (W2 m ρ c) (Proc.devRef .tc main_v24) = _
  after_results
  rfl
theorem entry_g (c : Dev nD) : V3 m ρ c main_v25 = shapeCast S1x1x512 (Cert.ReferenceIdeal.Read.val_main_v5 (F := Ideal) (m ((c : Thread nD τ).loc main_arg11)) (m ((c : Thread nD τ).loc main_arg12))) shapeCasts_S1x512_S1x1x512 := by
  rw [← thru_g m ρ c]
  show StableHlo.after hostOps1 (W2 m ρ c) (Proc.devRef .tc main_v25) = _
  after_results
  rfl
theorem entry_phi (c : Dev nD) : V3 m ρ c main_v26 = shapeCast S1x1x512 (Cert.ReferenceIdeal.Read.val_main_v7 (F := Ideal) (m ((c : Thread nD τ).loc main_arg11)) (m ((c : Thread nD τ).loc main_arg12))) shapeCasts_S1x512_S1x1x512 := by
  rw [← thru_phi m ρ c]
  show StableHlo.after hostOps1 (W2 m ρ c) (Proc.devRef .tc main_v26) = _
  after_results
  rfl
theorem entry_norm (c : Dev nD) : V3 m ρ c main_v27 = shapeCast S1x1x512 (Cert.ReferenceIdeal.Read.val_main_v11 (F := Ideal) (m ((c : Thread nD τ).loc main_arg11))) shapeCasts_S1x512_S1x1x512 := by
  rw [← thru_norm m ρ c]
  show StableHlo.after hostOps1 (W2 m ρ c) (Proc.devRef .tc main_v27) = _
  after_results
  rfl
theorem entry_arg7 (c : Dev nD) : V3 m ρ c main_arg7 = m ((c : Thread nD τ).loc main_arg7) := by
  rw [← thru_arg7 m ρ c]
  show StableHlo.after hostOps1 (W2 m ρ c) (Proc.devRef .tc main_arg7) = _
  after_results
theorem entry_arg8 (c : Dev nD) : V3 m ρ c main_arg8 = m ((c : Thread nD τ).loc main_arg8) := by
  rw [← thru_arg8 m ρ c]
  show StableHlo.after hostOps1 (W2 m ρ c) (Proc.devRef .tc main_arg8) = _
  after_results
theorem entry_arg9 (c : Dev nD) : V3 m ρ c main_arg9 = m ((c : Thread nD τ).loc main_arg9) := by
  rw [← thru_arg9 m ρ c]
  show StableHlo.after hostOps1 (W2 m ρ c) (Proc.devRef .tc main_arg9) = _
  after_results
theorem entry_arg10 (c : Dev nD) : V3 m ρ c main_arg10 = m ((c : Thread nD τ).loc main_arg10) := by
  rw [← thru_arg10 m ρ c]
  show StableHlo.after hostOps1 (W2 m ρ c) (Proc.devRef .tc main_arg10) = _
  after_results

/-! ## The four results -/

theorem big_n4 (c : Dev nD) : (dat1 (V3 m ρ) c).arrAt 8 cfg1.N
    = onCube (planeSubIn (Cert.ReferenceIdeal.Read.val_main_v5 (F := Ideal) (m ((c : Thread nD τ).loc main_arg11)) (m ((c : Thread nD τ).loc main_arg12))) (Cert.ReferenceIdeal.Read.val_main_v7 (F := Ideal) (m ((c : Thread nD τ).loc main_arg11)) (m ((c : Thread nD τ).loc main_arg12))) (Cert.ReferenceIdeal.Read.val_main_v11 (F := Ideal) (m ((c : Thread nD τ).loc main_arg11)))
        (m ((c : Thread nD τ).loc main_arg0)) (m ((c : Thread nD τ).loc main_arg7)) (m ((c : Thread nD τ).loc main_arg8))) := by
  rw [final8 (V3 m ρ) c, entry_g m ρ c, entry_phi m ρ c, entry_norm m ρ c, entry_x m ρ c, entry_arg7 m ρ c, entry_arg8 m ρ c]
  exact cubeSubIn_reshaped _ _ _ _ _ _

theorem big_n5 (c : Dev nD) : (dat1 (V3 m ρ) c).arrAt 9 cfg1.N
    = onCube (planeAdd (Cert.ReferenceIdeal.Read.val_main_v5 (F := Ideal) (m ((c : Thread nD τ).loc main_arg11)) (m ((c : Thread nD τ).loc main_arg12))) (Cert.ReferenceIdeal.Read.val_main_v7 (F := Ideal) (m ((c : Thread nD τ).loc main_arg11)) (m ((c : Thread nD τ).loc main_arg12))) (m ((c : Thread nD τ).loc main_arg8)) (m ((c : Thread nD τ).loc main_arg7))) := by
  rw [final9 (V3 m ρ) c, entry_g m ρ c, entry_phi m ρ c, entry_arg8 m ρ c, entry_arg7 m ρ c]
  exact cubeAdd_reshaped _ _ _ _

theorem big_n6 (c : Dev nD) : (dat1 (V3 m ρ) c).arrAt 10 cfg1.N
    = onCube (planeSub (Cert.ReferenceIdeal.Read.val_main_v5 (F := Ideal) (m ((c : Thread nD τ).loc main_arg11)) (m ((c : Thread nD τ).loc main_arg12))) (Cert.ReferenceIdeal.Read.val_main_v7 (F := Ideal) (m ((c : Thread nD τ).loc main_arg11)) (m ((c : Thread nD τ).loc main_arg12))) (m ((c : Thread nD τ).loc main_arg9)) (m ((c : Thread nD τ).loc main_arg10))) := by
  rw [final10 (V3 m ρ) c, entry_g m ρ c, entry_phi m ρ c, entry_arg9 m ρ c, entry_arg10 m ρ c]
  exact cubeSub_reshaped _ _ _ _

theorem big_n7 (c : Dev nD) : (dat1 (V3 m ρ) c).arrAt 11 cfg1.N
    = onCube (planeAddIn (Cert.ReferenceIdeal.Read.val_main_v5 (F := Ideal) (m ((c : Thread nD τ).loc main_arg11)) (m ((c : Thread nD τ).loc main_arg12))) (Cert.ReferenceIdeal.Read.val_main_v7 (F := Ideal) (m ((c : Thread nD τ).loc main_arg11)) (m ((c : Thread nD τ).loc main_arg12))) (Cert.ReferenceIdeal.Read.val_main_v11 (F := Ideal) (m ((c : Thread nD τ).loc main_arg11)))
        (m ((c : Thread nD τ).loc main_arg0)) (m ((c : Thread nD τ).loc main_arg10)) (m ((c : Thread nD τ).loc main_arg9))) := by
  rw [final11 (V3 m ρ) c, entry_g m ρ c, entry_phi m ρ c, entry_norm m ρ c, entry_x m ρ c, entry_arg10 m ρ c, entry_arg9 m ρ c]
  exact cubeAddIn_reshaped _ _ _ _ _ _

end Cert.KernelIdeal.BigResults

end
-- ==== Proof.RefIsSpec.lean ====
/-
  The reference's ten results are the specification's arrays.

  Each result is read one operation at a time: sums, differences and products entry by entry; a coefficient row
  spread down the batch (or, through a `1 × 1 × 512` block, over batch and inputs) read at its unit's coefficient;
  the input spread along the units read at its `(b, d)`; the host's contraction over the 512 inputs read as the plain
  sum. The eight coefficient rows are left as they are computed: the kernel computes them by the same operations.
-/
import proofs.«146985_j4964982194384_2_alg».proof.Proof.Gen.ReferenceIdeal.Read
import proofs.«146985_j4964982194384_2_alg».proof.Proof.Spec
import Idealize.ShloMosaic.Lib.Pipeline.Value
import Idealize.ShloMosaic.Lib.ValueIdx

noncomputable section

open scoped BigOperators

namespace Cert.ReferenceIdeal.IsSpec

open Cert.ReferenceIdeal Cert.ReferenceIdeal.Gen Cert.ReferenceIdeal.Read Cert.TraceSpec
open Idealize.ShloMosaic Idealize.ShloMosaic.ValueIdx

/-! ## The spreads, read at an entry -/

section Spreads
variable {F : FTy → Type} [FloatOps F]

/-- A coefficient row spread down the batch: under column `q`, the coefficient `q`. -/
theorem row_down (y : (⟨S1x512, .f32⟩ : BufTy).Contents (Elt F)) (p : Fin 64) (q : Fin 512) :
    (broadcastInDim S64x512 ![0, 1] bcast_S1x512_S64x512_0_1 y : (⟨S64x512, .f32⟩ : BufTy).Contents (Elt F)) (ix2 p q) = y (ix2 (0 : Fin 1) q) :=
  broadcastInDim_apply _ bcast_S1x512_S64x512_0_1 y (ix2 p q) (ix2 (0 : Fin 1) q) (fun a => match a with
    | ⟨0, _⟩ => by show (0 : Nat) = if (1 : Nat) = 1 then 0 else p.val; rw [if_pos rfl]
    | ⟨1, _⟩ => by show q.val = if (512 : Nat) = 1 then 0 else q.val; rw [if_neg (by decide)])

/-- A coefficient row as a `1 × 1 × 512` block: the coefficient `q`. -/
theorem row_block (y : (⟨S1x512, .f32⟩ : BufTy).Contents (Elt F)) (u v : Fin 1) (q : Fin 512) :
    (broadcastInDim S1x1x512 ![1, 2] bcast_S1x512_S1x1x512_1_2 y : (⟨S1x1x512, .f32⟩ : BufTy).Contents (Elt F)) (ix3 u v q) = y (ix2 (0 : Fin 1) q) :=
  broadcastInDim_apply _ bcast_S1x512_S1x1x512_1_2 y (ix3 u v q) (ix2 (0 : Fin 1) q) (fun a => match a with
    | ⟨0, _⟩ => by show (0 : Nat) = if (1 : Nat) = 1 then 0 else v.val; rw [if_pos rfl]
    | ⟨1, _⟩ => by show q.val = if (512 : Nat) = 1 then 0 else q.val; rw [if_neg (by decide)])

/-- That block spread over batch and inputs: still the coefficient `q`. -/
theorem block_over (y : (⟨S1x1x512, .f32⟩ : BufTy).Contents (Elt F)) (b : Fin 64) (d q : Fin 512) :
    (broadcastInDim S64x512x512 ![0, 1, 2] bcast_S1x1x512_S64x512x512_0_1_2 y : (⟨S64x512x512, .f32⟩ : BufTy).Contents (Elt F)) (ix3 b d q)
      = y (ix3 (0 : Fin 1) (0 : Fin 1) q) :=
  broadcastInDim_apply _ bcast_S1x1x512_S64x512x512_0_1_2 y (ix3 b d q) (ix3 (0 : Fin 1) (0 : Fin 1) q) (fun a => match a with
    | ⟨0, _⟩ => by show (0 : Nat) = if (1 : Nat) = 1 then 0 else b.val; rw [if_pos rfl]
    | ⟨1, _⟩ => by show (0 : Nat) = if (1 : Nat) = 1 then 0 else d.val; rw [if_pos rfl]
    | ⟨2, _⟩ => by show q.val = if (512 : Nat) = 1 then 0 else q.val; rw [if_neg (by decide)])

/-- The input with a trailing unit axis: its `(b, d)`. -/
theorem input_col (y : (⟨S64x512, .f32⟩ : BufTy).Contents (Elt F)) (b : Fin 64) (d : Fin 512) (u : Fin 1) :
    (broadcastInDim S64x512x1 ![0, 1] bcast_S64x512_S64x512x1_0_1 y : (⟨S64x512x1, .f32⟩ : BufTy).Contents (Elt F)) (ix3 b d u) = y (ix2 b d) :=
  broadcastInDim_apply _ bcast_S64x512_S64x512x1_0_1 y (ix3 b d u) (ix2 b d) (fun a => match a with
    | ⟨0, _⟩ => by show b.val = if (64 : Nat) = 1 then 0 else b.val; rw [if_neg (by decide)]
    | ⟨1, _⟩ => by show d.val = if (512 : Nat) = 1 then 0 else d.val; rw [if_neg (by decide)])

/-- That column spread along the units: the entry at `(b, d, 0)`. -/
theorem col_along (y : (⟨S64x512x1, .f32⟩ : BufTy).Contents (Elt F)) (b : Fin 64) (d q : Fin 512) :
    (broadcastInDim S64x512x512 ![0, 1, 2] bcast_S64x512x1_S64x512x512_0_1_2 y : (⟨S64x512x512, .f32⟩ : BufTy).Contents (Elt F)) (ix3 b d q)
      = y (ix3 b d (0 : Fin 1)) :=
  broadcastInDim_apply _ bcast_S64x512x1_S64x512x512_0_1_2 y (ix3 b d q) (ix3 b d (0 : Fin 1)) (fun a => match a with
    | ⟨0, _⟩ => by show b.val = if (64 : Nat) = 1 then 0 else b.val; rw [if_neg (by decide)]
    | ⟨1, _⟩ => by show d.val = if (512 : Nat) = 1 then 0 else d.val; rw [if_neg (by decide)]
    | ⟨2, _⟩ => by show (0 : Nat) = if (1 : Nat) = 1 then 0 else q.val; rw [if_pos rfl])

end Spreads

/-! ## The two contractions -/

theorem dot1_apply (x0 : (⟨S64x512, .f32⟩ : BufTy).Contents (Elt Ideal)) (x13 : (⟨S512x512, .f32⟩ : BufTy).Contents (Elt Ideal))
    (p : Fin 64) (q : Fin 512) : val_main_v23 (F := Ideal) x0 x13 (ix2 p q) = proj x0 x13 p q := by
  rw [val_main_v23_apply]
  refine Finset.sum_congr rfl fun k _ => ?_
  rw [show lidx_main_v23 (ix2 p q) k = ix2 p k from funext fun a => Fin.ext (by match a with | ⟨0, _⟩ => rfl | ⟨1, _⟩ => rfl),
    show ridx_main_v23 (ix2 p q) k = ix2 k q from funext fun a => Fin.ext (by match a with | ⟨0, _⟩ => rfl | ⟨1, _⟩ => rfl)]

theorem dot2_apply (x0 : (⟨S64x512, .f32⟩ : BufTy).Contents (Elt Ideal)) (x14 : (⟨S512x512, .f32⟩ : BufTy).Contents (Elt Ideal))
    (p : Fin 64) (q : Fin 512) : val_main_v24 (F := Ideal) x0 x14 (ix2 p q) = proj x0 x14 p q := by
  rw [val_main_v24_apply]
  refine Finset.sum_congr rfl fun k _ => ?_
  rw [show lidx_main_v24 (ix2 p q) k = ix2 p k from funext fun a => Fin.ext (by match a with | ⟨0, _⟩ => rfl | ⟨1, _⟩ => rfl),
    show ridx_main_v24 (ix2 p q) k = ix2 k q from funext fun a => Fin.ext (by match a with | ⟨0, _⟩ => rfl | ⟨1, _⟩ => rfl)]

/-! ## The results -/

variable (x0 x1 x2 x3 x4 x5 x6 : (⟨S64x512, .f32⟩ : BufTy).Contents (Elt Ideal))
variable (x7 x8 x9 x10 : (⟨S64x512x512, .f32⟩ : BufTy).Contents (Elt Ideal))
variable (x11 x12 : (⟨S1x512, .f32⟩ : BufTy).Contents (Elt Ideal))
variable (x13 x14 : (⟨S512x512, .f32⟩ : BufTy).Contents (Elt Ideal))

theorem v32_eq : val_main_v32 (F := Ideal) x0 x1 x2 x11 x12 x13
    = onMat (state1 (val_main_v5 x11 x12) (val_main_v7 x11 x12) (val_main_v11 x11) x0 x1 x2 x13) := by
  funext i
  obtain ⟨p, q, rfl⟩ : ∃ (p : Fin 64) (q : Fin 512), i = ix2 p q := ⟨i 0, i 1, eq_ix2 i⟩
  simp only [val_main_v32_apply, val_main_v29_apply, val_main_v26_apply, val_main_v28_apply, val_main_v31_apply, val_main_v25, val_main_v27, val_main_v30, dot1_apply]
  repeat rw [row_down]
  all_goals rfl

theorem v40_eq : val_main_v40 (F := Ideal) x0 x1 x2 x11 x12 x14
    = onMat (state2 (val_main_v5 x11 x12) (val_main_v7 x11 x12) (val_main_v11 x11) x0 x1 x2 x14) := by
  funext i
  obtain ⟨p, q, rfl⟩ : ∃ (p : Fin 64) (q : Fin 512), i = ix2 p q := ⟨i 0, i 1, eq_ix2 i⟩
  simp only [val_main_v40_apply, val_main_v37_apply, val_main_v34_apply, val_main_v36_apply, val_main_v39_apply, val_main_v33, val_main_v35, val_main_v38, dot2_apply]
  repeat rw [row_down]
  all_goals rfl

theorem v54_eq : val_main_v54 (F := Ideal) x0 x1 x2 x3 x4 x11 x12 x13
    = onMat (trace0 (val_main_v5 x11 x12) (val_main_v7 x11 x12) (val_main_v14 x11 x12) (val_main_v16 x11 x12) (val_main_v22 x11)
        x0 x1 x2 x3 x4 x13) := by
  funext i
  obtain ⟨p, q, rfl⟩ : ∃ (p : Fin 64) (q : Fin 512), i = ix2 p q := ⟨i 0, i 1, eq_ix2 i⟩
  simp only [val_main_v54_apply, val_main_v51_apply, val_main_v48_apply, val_main_v45_apply, val_main_v42_apply, val_main_v44_apply, val_main_v47_apply, val_main_v50_apply, val_main_v53_apply, val_main_v41, val_main_v43, val_main_v46, val_main_v49, val_main_v52, dot1_apply]
  repeat rw [row_down]
  all_goals rfl

theorem v68_eq : val_main_v68 (F := Ideal) x0 x1 x2 x3 x4 x11 x12 x14
    = onMat (trace1 (val_main_v5 x11 x12) (val_main_v7 x11 x12) (val_main_v14 x11 x12) (val_main_v16 x11 x12) (val_main_v22 x11)
        x0 x1 x2 x3 x4 x14) := by
  funext i
  obtain ⟨p, q, rfl⟩ : ∃ (p : Fin 64) (q : Fin 512), i = ix2 p q := ⟨i 0, i 1, eq_ix2 i⟩
  simp only [val_main_v68_apply, val_main_v65_apply, val_main_v62_apply, val_main_v59_apply, val_main_v56_apply, val_main_v58_apply, val_main_v61_apply, val_main_v64_apply, val_main_v67_apply, val_main_v55, val_main_v57, val_main_v60, val_main_v63, val_main_v66, dot2_apply]
  repeat rw [row_down]
  all_goals rfl

theorem v79_eq : val_main_v79 (F := Ideal) x1 x2 x5 x6 x11 x12
    = onMat (trace2 (val_main_v5 x11 x12) (val_main_v7 x11 x12) (val_main_v18 x11 x12) (val_main_v19 x11 x12) x1 x2 x5 x6) := by
  funext i
  obtain ⟨p, q, rfl⟩ : ∃ (p : Fin 64) (q : Fin 512), i = ix2 p q := ⟨i 0, i 1, eq_ix2 i⟩
  simp only [val_main_v79_apply, val_main_v76_apply, val_main_v73_apply, val_main_v70_apply, val_main_v72_apply, val_main_v75_apply, val_main_v78_apply, val_main_v69, val_main_v71, val_main_v74, val_main_v77]
  repeat rw [row_down]
  all_goals rfl

theorem v90_eq : val_main_v90 (F := Ideal) x1 x2 x5 x6 x11 x12
    = onMat (trace3 (val_main_v5 x11 x12) (val_main_v7 x11 x12) (val_main_v18 x11 x12) (val_main_v19 x11 x12) x1 x2 x5 x6) := by
  funext i
  obtain ⟨p, q, rfl⟩ : ∃ (p : Fin 64) (q : Fin 512), i = ix2 p q := ⟨i 0, i 1, eq_ix2 i⟩
  simp only [val_main_v90_apply, val_main_v87_apply, val_main_v84_apply, val_main_v81_apply, val_main_v83_apply, val_main_v86_apply, val_main_v89_apply, val_main_v80, val_main_v82, val_main_v85, val_main_v88]
  repeat rw [row_down]
  all_goals rfl

theorem v103_eq : val_main_v103 (F := Ideal) x0 x7 x8 x11 x12
    = onCube (planeSubIn (val_main_v5 x11 x12) (val_main_v7 x11 x12) (val_main_v11 x11) x0 x7 x8) := by
  funext i
  obtain ⟨b, d, q, rfl⟩ : ∃ (b : Fin 64) (d q : Fin 512), i = ix3 b d q := ⟨i 0, i 1, i 2, eq_ix3 i⟩
  simp only [val_main_v103_apply, val_main_v98_apply, val_main_v94_apply, val_main_v97_apply, val_main_v102_apply, val_main_v93, val_main_v92, val_main_v96, val_main_v95, val_main_v100, val_main_v99, val_main_v101, val_main_v91]
  repeat rw [block_over]
  repeat rw [row_block]
  repeat rw [col_along]
  repeat rw [input_col]
  all_goals rfl

theorem v117_eq : val_main_v117 (F := Ideal) x7 x8 x11 x12
    = onCube (planeAdd (val_main_v5 x11 x12) (val_main_v7 x11 x12) x8 x7) := by
  funext i
  obtain ⟨b, d, q, rfl⟩ : ∃ (b : Fin 64) (d q : Fin 512), i = ix3 b d q := ⟨i 0, i 1, i 2, eq_ix3 i⟩
  simp only [val_main_v117_apply, val_main_v113_apply, val_main_v116_apply, val_main_v112, val_main_v111, val_main_v115, val_main_v114]
  repeat rw [block_over]
  repeat rw [row_block]
  all_goals rfl

theorem v110_eq : val_main_v110 (F := Ideal) x9 x10 x11 x12
    = onCube (planeSub (val_main_v5 x11 x12) (val_main_v7 x11 x12) x9 x10) := by
  funext i
  obtain ⟨b, d, q, rfl⟩ : ∃ (b : Fin 64) (d q : Fin 512), i = ix3 b d q := ⟨i 0, i 1, i 2, eq_ix3 i⟩
  simp only [val_main_v110_apply, val_main_v106_apply, val_main_v109_apply, val_main_v105, val_main_v104, val_main_v108, val_main_v107]
  repeat rw [block_over]
  repeat rw [row_block]
  all_goals rfl

theorem v129_eq : val_main_v129 (F := Ideal) x0 x9 x10 x11 x12
    = onCube (planeAddIn (val_main_v5 x11 x12) (val_main_v7 x11 x12) (val_main_v11 x11) x0 x10 x9) := by
  funext i
  obtain ⟨b, d, q, rfl⟩ : ∃ (b : Fin 64) (d q : Fin 512), i = ix3 b d q := ⟨i 0, i 1, i 2, eq_ix3 i⟩
  simp only [val_main_v129_apply, val_main_v124_apply, val_main_v120_apply, val_main_v123_apply, val_main_v128_apply, val_main_v119, val_main_v118, val_main_v122, val_main_v121, val_main_v126, val_main_v125, val_main_v127, val_main_v91]
  repeat rw [block_over]
  repeat rw [row_block]
  repeat rw [col_along]
  repeat rw [input_col]
  all_goals rfl

end Cert.ReferenceIdeal.IsSpec

end
-- ==== Proof.lean ====
/-
  A linear-recurrent cell with explicit eligibility traces, 64 batch rows, 512 inputs, 512 hidden units: the kernel
  against its reference on the extended reals.

  Both programs first compute, from the two parameter rows, eight rows of per-unit coefficients (the rotation `g`, `φ`,
  the normalising factor `n`, and five derivatives) by the same host operations in the same order. The kernel then
  makes two calls. The small one (a single grid point, whole arrays) forms the two halves of the new hidden state and
  the four parameter traces: pointwise sums of products of a coefficient, spread down the batch, with an old array,
  plus a coefficient times the projection of the input on a weight matrix. The big one (32 grid points, two batch rows
  each) forms the four weight traces: the old planes rotated by `(g, φ)`, two of them plus `n` times the input entry.
  The reference computes the same ten arrays by whole-array operations.

  Entry by entry the two sides are the same expression with its operations in the same order, so no law of
  arithmetic and no finiteness of the inputs is used. What differs is layout and spelling: the kernel's matrix product
  changes the float format of both factors first (the identity on the extended reals) and accumulates into zero, the
  reference contracts directly, and both are the plain sum over the 512 inputs; a coefficient row reaches an entry by
  a spread down the batch on one side and through a `1 × 1 × 512` block on the other; the input reaches the weight
  traces through a trailing unit axis on both sides. The ten results are stated once (Proof/Spec.lean), the reference
  is shown to compute them (Proof/RefIsSpec.lean), and the kernel's run is read off its two calls (Proof/KernelRun.lean
  for the run, Proof/SmallBody.lean and Proof/SmallArrays.lean for the small call, Proof/BigBody.lean,
  Proof/BigArrays.lean and Proof/BigResults.lean for the big one).
-/
import proofs.«146985_j4964982194384_2_alg».proof.Defs
import proofs.«146985_j4964982194384_2_alg».proof.Proof.Gen.Kernel
import proofs.«146985_j4964982194384_2_alg».proof.Proof.Gen.Kernel.Skeleton
import proofs.«146985_j4964982194384_2_alg».proof.Proof.Gen.Kernel.Launch
import proofs.«146985_j4964982194384_2_alg».proof.Proof.Gen.Kernel.Points
import proofs.«146985_j4964982194384_2_alg».proof.Proof.Gen.Kernel.Frame
import proofs.«146985_j4964982194384_2_alg».proof.Proof.Gen.KernelIdeal
import proofs.«146985_j4964982194384_2_alg».proof.Proof.Gen.KernelIdeal.Skeleton
import proofs.«146985_j4964982194384_2_alg».proof.Proof.Gen.KernelIdeal.Launch
import proofs.«146985_j4964982194384_2_alg».proof.Proof.Gen.KernelIdeal.Points
import proofs.«146985_j4964982194384_2_alg».proof.Proof.Gen.KernelIdeal.Frame
import proofs.«146985_j4964982194384_2_alg».proof.Proof.Gen.ReferenceIdeal
import proofs.«146985_j4964982194384_2_alg».proof.Proof.Gen.ReferenceIdeal.Run
import proofs.«146985_j4964982194384_2_alg».proof.Proof.Gen.ReferenceIdeal.Read
import proofs.«146985_j4964982194384_2_alg».proof.Proof.Gen.Pre_finite_inputs
import proofs.«146985_j4964982194384_2_alg».proof.Proof.KernelRun
import proofs.«146985_j4964982194384_2_alg».proof.Proof.SmallArrays
import proofs.«146985_j4964982194384_2_alg».proof.Proof.BigResults
import proofs.«146985_j4964982194384_2_alg».proof.Proof.RefIsSpec
import Idealize.ShloMosaic.Adequacy
import Idealize.ShloMosaic.Init

set_option maxRecDepth 16384

noncomputable section

namespace Cert.Proof

open Idealize.ShloMosaic Idealize.SL.Sem

/-- The printed kernel runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as launched: its run, with the ten results dropped. -/
theorem frame_referenceIdeal : Cert.frame_ReferenceIdeal := fun m ρ _ =>
  (θ_run Cert.ReferenceIdeal.defs _ _).mono (fun _ h c => (h c).2.2.2.2.2.2.2.2.2.2)
    (Cert.ReferenceIdeal.Value.run (F := Ideal) m ρ)

/-- The idealization rewrote no operation. -/
theorem preserves : Cert.preserves_Kernel_KernelIdeal := trivial

section Same
variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

/-- The first half of the new state: the reference's stage at arguments that agree with the kernel's is the array the kernel's call leaves. -/
theorem same_v32 (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.Read.val_main_v32 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
      = (Cert.KernelIdeal.Gen.dat0 (Cert.KernelIdeal.Gen.V1 m ρ) c).arrAt 17 Cert.KernelIdeal.cfg0.N := by
  rw [Cert.ReferenceIdeal.IsSpec.v32_eq, a0, a1, a2, a11, a12, a13]
  exact (Cert.KernelIdeal.SmallArrays.small_state1 m ρ c).symm

/-- The second half of the new state: the reference's stage at arguments that agree with the kernel's is the array the kernel's call leaves. -/
theorem same_v40 (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Read.val_main_v40 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg14))
      = (Cert.KernelIdeal.Gen.dat0 (Cert.KernelIdeal.Gen.V1 m ρ) c).arrAt 18 Cert.KernelIdeal.cfg0.N := by
  rw [Cert.ReferenceIdeal.IsSpec.v40_eq, a0, a1, a2, a11, a12, a14]
  exact (Cert.KernelIdeal.SmallArrays.small_state2 m ρ c).symm

/-- The decay trace of the first half: the reference's stage at arguments that agree with the kernel's is the array the kernel's call leaves. -/
theorem same_v54 (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.Read.val_main_v54 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
      = (Cert.KernelIdeal.Gen.dat0 (Cert.KernelIdeal.Gen.V1 m ρ) c).arrAt 19 Cert.KernelIdeal.cfg0.N := by
  rw [Cert.ReferenceIdeal.IsSpec.v54_eq, a0, a1, a2, a3, a4, a11, a12, a13]
  exact (Cert.KernelIdeal.SmallArrays.small_trace0 m ρ c).symm

/-- The decay trace of the second half: the reference's stage at arguments that agree with the kernel's is the array the kernel's call leaves. -/
theorem same_v68 (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Read.val_main_v68 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg14))
      = (Cert.KernelIdeal.Gen.dat0 (Cert.KernelIdeal.Gen.V1 m ρ) c).arrAt 20 Cert.KernelIdeal.cfg0.N := by
  rw [Cert.ReferenceIdeal.IsSpec.v68_eq, a0, a1, a2, a3, a4, a11, a12, a14]
  exact (Cert.KernelIdeal.SmallArrays.small_trace1 m ρ c).symm

/-- The angle trace of the first half: the reference's stage at arguments that agree with the kernel's is the array the kernel's call leaves. -/
theorem same_v79 (c : Dev Cert.KernelIdeal.nD)
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Read.val_main_v79 (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = (Cert.KernelIdeal.Gen.dat0 (Cert.KernelIdeal.Gen.V1 m ρ) c).arrAt 21 Cert.KernelIdeal.cfg0.N := by
  rw [Cert.ReferenceIdeal.IsSpec.v79_eq, a1, a2, a5, a6, a11, a12]
  exact (Cert.KernelIdeal.SmallArrays.small_trace2 m ρ c).symm

/-- The angle trace of the second half: the reference's stage at arguments that agree with the kernel's is the array the kernel's call leaves. -/
theorem same_v90 (c : Dev Cert.KernelIdeal.nD)
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Read.val_main_v90 (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = (Cert.KernelIdeal.Gen.dat0 (Cert.KernelIdeal.Gen.V1 m ρ) c).arrAt 22 Cert.KernelIdeal.cfg0.N := by
  rw [Cert.ReferenceIdeal.IsSpec.v90_eq, a1, a2, a5, a6, a11, a12]
  exact (Cert.KernelIdeal.SmallArrays.small_trace3 m ρ c).symm

/-- The first weight trace of the first half: the reference's stage at arguments that agree with the kernel's is the array the kernel's call leaves. -/
theorem same_v103 (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Read.val_main_v103 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = (Cert.KernelIdeal.Gen.dat1 (Cert.KernelIdeal.Gen.V3 m ρ) c).arrAt 8 Cert.KernelIdeal.cfg1.N := by
  rw [Cert.ReferenceIdeal.IsSpec.v103_eq, a0, a7, a8, a11, a12]
  exact (Cert.KernelIdeal.BigResults.big_n4 m ρ c).symm

/-- The first weight trace of the second half: the reference's stage at arguments that agree with the kernel's is the array the kernel's call leaves. -/
theorem same_v117 (c : Dev Cert.KernelIdeal.nD)
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Read.val_main_v117 (F := Ideal) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = (Cert.KernelIdeal.Gen.dat1 (Cert.KernelIdeal.Gen.V3 m ρ) c).arrAt 9 Cert.KernelIdeal.cfg1.N := by
  rw [Cert.ReferenceIdeal.IsSpec.v117_eq, a7, a8, a11, a12]
  exact (Cert.KernelIdeal.BigResults.big_n5 m ρ c).symm

/-- The second weight trace of the first half: the reference's stage at arguments that agree with the kernel's is the array the kernel's call leaves. -/
theorem same_v110 (c : Dev Cert.KernelIdeal.nD)
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Read.val_main_v110 (F := Ideal) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = (Cert.KernelIdeal.Gen.dat1 (Cert.KernelIdeal.Gen.V3 m ρ) c).arrAt 10 Cert.KernelIdeal.cfg1.N := by
  rw [Cert.ReferenceIdeal.IsSpec.v110_eq, a9, a10, a11, a12]
  exact (Cert.KernelIdeal.BigResults.big_n6 m ρ c).symm

/-- The second weight trace of the second half: the reference's stage at arguments that agree with the kernel's is the array the kernel's call leaves. -/
theorem same_v129 (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Read.val_main_v129 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = (Cert.KernelIdeal.Gen.dat1 (Cert.KernelIdeal.Gen.V3 m ρ) c).arrAt 11 Cert.KernelIdeal.cfg1.N := by
  rw [Cert.ReferenceIdeal.IsSpec.v129_eq, a0, a9, a10, a11, a12]
  exact (Cert.KernelIdeal.BigResults.big_n7 m ρ c).symm

end Same

/-- From memories that agree on the fifteen arguments both programs end with the same ten arrays: the kernel's are
    what its two calls leave, the reference's are its stages, and both are the specification's arrays of the
    arguments. -/
theorem algebraic : Cert.algebraic_KernelIdeal_ReferenceIdeal := by
  intro m ρ m' ρ' _ hagree
  refine ⟨_, _, _, _, _, _, _, _, _, _, Cert.KernelIdeal.Fold.run_arrays (F := Ideal) m ρ, ?_⟩
  refine (θ_run Cert.ReferenceIdeal.defs _ _).mono (fun r h c => ?_) (Cert.ReferenceIdeal.Value.run (F := Ideal) m' ρ')
  obtain ⟨e0, e1, e2, e3, e4, e5, e6, e7, e8, e9, eargs⟩ := h c
  obtain ⟨a0, a1, a2, a3, a4, a5, a6, a7, a8, a9, a10, a11, a12, a13, a14⟩ := hagree c
  exact ⟨e0.trans (same_v32 m ρ m' c a0 a1 a2 a11 a12 a13),
    e1.trans (same_v40 m ρ m' c a0 a1 a2 a11 a12 a14),
    e2.trans (same_v54 m ρ m' c a0 a1 a2 a3 a4 a11 a12 a13),
    e3.trans (same_v68 m ρ m' c a0 a1 a2 a3 a4 a11 a12 a14),
    e4.trans (same_v79 m ρ m' c a1 a2 a5 a6 a11 a12),
    e5.trans (same_v90 m ρ m' c a1 a2 a5 a6 a11 a12),
    e6.trans (same_v103 m ρ m' c a0 a7 a8 a11 a12),
    e7.trans (same_v117 m ρ m' c a7 a8 a11 a12),
    e8.trans (same_v110 m ρ m' c a9 a10 a11 a12),
    e9.trans (same_v129 m ρ m' c a0 a9 a10 a11 a12),
    eargs⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
